-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x64 .f32) (main_arg4 : FVec F S64 .f32) (main_arg5 : FVec F S64x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S10000x64 : Shape := ⟨2, ![10000, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 88
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x40, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x40, .f32⟩
  | .hbm, ⟨79, _⟩ => ⟨S1700000x40, .f32⟩
  | .hbm, ⟨80, _⟩ => ⟨S1700000x40, .f32⟩
  | .hbm, ⟨81, _⟩ => ⟨S_, .f32⟩
  | .hbm, ⟨82, _⟩ => ⟨S100000x40, .f32⟩
  | .hbm, ⟨83, _⟩ => ⟨S1700000x1, .i32⟩
  | .hbm, ⟨84, _⟩ => ⟨S100000x40, .f32⟩
  | .hbm, ⟨85, _⟩ => ⟨S1x40, .f32⟩
  | .hbm, ⟨86, _⟩ => ⟨S100000x40, .f32⟩
  | .hbm, ⟨87, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S10000x40, .f32⟩
  | .local _ .vmem, ⟨16, _⟩ => ⟨S10000x40, .f32⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | .local _ .vmem, ⟨20, _⟩ => ⟨S10000x40, .f32⟩
  | .local _ .vmem, ⟨21, _⟩ => ⟨S10000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63_0 : Ref sig .tc := ⟨.hbm, 86, rfl⟩
abbrev main_v63_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x40.size a ≤ S100000x40.size a
  hwx3_3 : ∀ i : grid3.Coords, EltTy.bits .f32 = 32 ∨ (Rect.block (s := S100000x40) S10000x40.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63_0) S10000x40.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63_1) S10000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x40, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x40, .f32⟩
  | .hbm, ⟨83, _⟩ => ⟨S1700000x40, .f32⟩
  | .hbm, ⟨84, _⟩ => ⟨S1700000x40, .f32⟩
  | .hbm, ⟨85, _⟩ => ⟨S_, .f32⟩
  | .hbm, ⟨86, _⟩ => ⟨S100000x40, .f32⟩
  | .hbm, ⟨87, _⟩ => ⟨S1700000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The graph-convolution stages both programs share, as pure functions.

  Both programs compute  out = Â · (relu (Â · (x W₁) + b₁) W₂) + b₂  and its row-wise log-softmax, where Â is the
  normalised adjacency with self-loops: an edge list (row, col) with weights w, the degree d = scatter-add of w at
  col, d^(-1/2) where d > 0 and 0 elsewhere, the per-edge coefficient  norm = d^(-1/2)[row] · w · d^(-1/2)[col],  and
  Â · t = scatter-add at col of norm · t[row].  The gather, the scale and the scatter-add are the same host
  operations in both programs; only the dense steps between them differ (a tiled kernel against one host operation).
  Here each shared stretch of host operations is one function of the values it reads, and the reference's staged
  values are these functions of one another (each by unfolding the stages).
-/
import proofs.«164825_j75273596830285_1_alg».proof.Proof.RefRead

noncomputable section

namespace Cert.Spec

open Cert.ReferenceIdeal Cert.ReferenceIdeal.Gen Cert.ReferenceIdeal.Read Idealize.ShloMosaic Idealize.ShloMosaic.TcCoe

/-- An array of 32-bit integers, of floats, of bits, of the given shape. -/
abbrev I32 (s : Shape) := IVec s 32
abbrev F32 (s : Shape) := FVec Ideal s .f32
abbrev I1 (s : Shape) := IVec s 1

/-- d^(-1/2) where the degree is positive, the given zero elsewhere. -/
def invSqrt (pos : I1 S100000) (rs : F32 S100000) (z : F32 S_) : F32 S100000 :=
  select pos rs (broadcastInDim S100000 ![] bcast_S_S100000 (id z))

theorem v15_eq (x1 : I32 S2x1600000) (x2 : F32 S1600000) :
    val_main_v15 (F := Ideal) x1 x2 = invSqrt (val_main_v13 (F := Ideal) x1 x2) (val_main_v14 (F := Ideal) x1 x2) (val_main_cst_2 (F := Ideal)) := rfl

/-- A node index list as gather indices: a negative index wraps around (numpy's convention), then one index per row. -/
def wrap (r : I32 S1700000) : I32 S1700000x1 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- The per-edge coefficient d^(-1/2)[row] · w · d^(-1/2)[col]. -/
def norm (d : F32 S100000) (row col : I32 S1700000) (w : F32 S1700000) : F32 S1700000 :=
  mulf (mulf (Host.gather gather_S100000_S1700000x1_S1700000_n_0_n_n_0_1_1 d (wrap row)) w)
    (Host.gather gather_S100000_S1700000x1_S1700000_n_0_n_n_0_1_1 d (wrap col))

theorem v31_eq (x1 : I32 S2x1600000) (x2 : F32 S1600000) :
    val_main_v31 (F := Ideal) x1 x2 = norm (val_main_v15 (F := Ideal) x1 x2) (val_main_v3 (F := Ideal) x1) (val_main_v6 (F := Ideal) x1) (val_main_v8 (F := Ideal) x2) := rfl

/-- Â · t for 64 features: gather the rows of t at row, scale by the coefficient, scatter-add at col. -/
def agg64 (t : F32 S100000x64) (row col : I32 S1700000) (nrm : F32 S1700000) : F32 S100000x64 :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 col)
    (mulf (broadcastInDim S1700000x64 ![0, 1] bcast_S1700000x1_S1700000x64_0_1 (broadcastInDim S1700000x1 ![0] bcast_S1700000_S1700000x1_0 nrm))
      (Host.gather gather_S100000x64_S1700000x1_S1700000x64_1_0_n_n_0_1_164 t (wrap row)))

theorem v45_eq (x0 : F32 S100000x256) (x1 : I32 S2x1600000) (x2 : F32 S1600000) (x3 : F32 S256x64) :
    val_main_v45 (F := Ideal) x0 x1 x2 x3 = agg64 (val_main_v32 (F := Ideal) x0 x3) (val_main_v3 (F := Ideal) x1) (val_main_v6 (F := Ideal) x1) (val_main_v31 (F := Ideal) x1 x2) := rfl

/-- Â · t for 40 features. -/
def agg40 (t : F32 S100000x40) (row col : I32 S1700000) (nrm : F32 S1700000) : F32 S100000x40 :=
  Host.scatterAdd scatter_S100000x40_S1700000x1_S1700000x40_1_0_0_1
    (broadcastInDim S100000x40 ![] bcast_S_S100000x40 (constant (F := Ideal) S_ .f32 0x00000000#32))
    (broadcastInDim S1700000x1 ![0] bcast_S1700000_S1700000x1_0 col)
    (mulf (broadcastInDim S1700000x40 ![0, 1] bcast_S1700000x1_S1700000x40_0_1 (broadcastInDim S1700000x1 ![0] bcast_S1700000_S1700000x1_0 nrm))
      (Host.gather gather_S100000x40_S1700000x1_S1700000x40_1_0_n_n_0_1_140 t (wrap row)))

theorem v63_eq (x0 : F32 S100000x256) (x1 : I32 S2x1600000) (x2 : F32 S1600000) (x3 : F32 S256x64) (x4 : F32 S64) (x5 : F32 S64x40) :
    val_main_v63 (F := Ideal) x0 x1 x2 x3 x4 x5 = agg40 (val_main_v50 (F := Ideal) x0 x1 x2 x3 x4 x5) (val_main_v3 (F := Ideal) x1) (val_main_v6 (F := Ideal) x1) (val_main_v31 (F := Ideal) x1 x2) := rfl

/-- A bias vector as a one-row matrix. -/
def row64 (b : F32 S64) : F32 S1x64 := shapeCast S1x64 b (by decide)
def row40 (b : F32 S40) : F32 S1x40 := shapeCast S1x40 b (by decide)

/-- The hidden layer from the first aggregation: add the bias to every row, cut off below at zero. -/
def hiddenLayer (a : F32 S100000x64) (b : F32 S64) : F32 S100000x64 :=
  maximumf (addf a (val_main_v47 (F := Ideal) b)) (val_main_call1_v0 (F := Ideal))

theorem v49_eq (x0 : F32 S100000x256) (x1 : I32 S2x1600000) (x2 : F32 S1600000) (x3 : F32 S256x64) (x4 : F32 S64) :
    val_main_v49 (F := Ideal) x0 x1 x2 x3 x4 = hiddenLayer (val_main_v45 (F := Ideal) x0 x1 x2 x3) x4 := rfl

/-- The second dense product. -/
def dense2 (h : F32 S100000x64) (w : F32 S64x40) : F32 S100000x40 :=
  Host.dotGeneral dot_S100000x64_S64x40_S100000x40_1_0_0_1_n_n none h w

theorem v50_eq (x0 : F32 S100000x256) (x1 : I32 S2x1600000) (x2 : F32 S1600000) (x3 : F32 S256x64) (x4 : F32 S64) (x5 : F32 S64x40) :
    val_main_v50 (F := Ideal) x0 x1 x2 x3 x4 x5 = dense2 (val_main_v49 (F := Ideal) x0 x1 x2 x3 x4) x5 := rfl

/-- The first result from the second aggregation: add the bias to every row. -/
def finalAdd (a : F32 S100000x40) (b : F32 S40) : F32 S100000x40 :=
  addf a (val_main_v65 (F := Ideal) b)

theorem v66_eq (x0 : F32 S100000x256) (x1 : I32 S2x1600000) (x2 : F32 S1600000) (x3 : F32 S256x64) (x4 : F32 S64) (x5 : F32 S64x40) (x6 : F32 S40) :
    val_main_v66 (F := Ideal) x0 x1 x2 x3 x4 x5 x6 = finalAdd (val_main_v63 (F := Ideal) x0 x1 x2 x3 x4 x5) x6 := rfl

/-- A [100000] column of row values spread along the forty lanes. -/
def alongLanes (u : F32 S100000x1) : F32 S100000x40 := broadcastInDim S100000x40 ![0, 1] bcast_S100000x1_S100000x40_0_1 u
def asColumn (u : F32 S100000) : F32 S100000x1 := broadcastInDim S100000x1 ![0] bcast_S100000_S100000x1_0 u

/-- Each row minus its maximum (jax takes the maximum of −∞ and the row's maximum from −∞). -/
def shifted (f : F32 S100000x40) : F32 S100000x40 :=
  subf f (alongLanes (asColumn (maximumf (broadcastInDim S100000 ![] bcast_S_S100000 (constant (F := Ideal) S_ .f32 0xFF800000#32))
    (Host.reduce FloatOps.maximumf f (constant (F := Ideal) S_ .f32 0xFF800000#32) reducesTo_S100000x40_S100000_d1 h_S_))))

/-- The row-wise log-softmax as jax spells it: the shifted row minus the logarithm of the sum of its exponentials. -/
def lsm (f : F32 S100000x40) : F32 S100000x40 :=
  subf (shifted f) (alongLanes (Host.log (asColumn
    (Host.reduceAdd (Host.exp (shifted f)) (constant (F := Ideal) S_ .f32 0x00000000#32) reducesTo_S100000x40_S100000_d1 h_S_))))

theorem v67_eq (x0 : F32 S100000x256) (x1 : I32 S2x1600000) (x2 : F32 S1600000) (x3 : F32 S256x64) (x4 : F32 S64) (x5 : F32 S64x40) (x6 : F32 S40) :
    val_main_v67 (F := Ideal) x0 x1 x2 x3 x4 x5 x6 = lsm (val_main_v66 (F := Ideal) x0 x1 x2 x3 x4 x5 x6) := rfl

end Cert.Spec

end
-- ==== Proof.KernelHost.lean ====
/-
  The kernel's stretches of host operations, each as a function of the values it reads.

  Between its four regions the kernel runs the same graph-normalisation, gather, scale and scatter-add host
  operations as the reference.  From any buffer contents, each stretch leaves in the buffers it writes the shared
  stage functions of the buffers it reads, and leaves every other buffer alone.
-/
import proofs.«164825_j75273596830285_1_alg».proof.Proof.Gen.KernelIdeal.Frame
import proofs.«164825_j75273596830285_1_alg».proof.Proof.Spec
import Idealize.ShloMosaic.Lib.StableHlo.Run

set_option maxHeartbeats 2000000

noncomputable section

namespace Cert.KernelIdeal.HostStages

open Cert.KernelIdeal Cert.KernelIdeal.Gen Idealize.ShloMosaic Idealize.ShloMosaic.TcCoe Idealize.SL.Sem Idealize.ShloMosaic.StableHlo
open Cert.ReferenceIdeal.Read (val_main_v3 val_main_v6 val_main_v8 val_main_v13 val_main_v14 val_main_cst_2)

variable (W : Valuation τ sig (Elt Ideal))

/-! ## The edge lists, the weights and the degree -/

theorem a_v3 : after hostOps0 W (Proc.devRef .tc main_v3) = val_main_v3 (F := Ideal) (W (Proc.devRef .tc main_arg1)) := by after_results_simp; rfl
theorem a_v6 : after hostOps0 W (Proc.devRef .tc main_v6) = val_main_v6 (F := Ideal) (W (Proc.devRef .tc main_arg1)) := by after_results_simp; rfl
theorem a_v8 : after hostOps0 W (Proc.devRef .tc main_v8) = val_main_v8 (F := Ideal) (W (Proc.devRef .tc main_arg2)) := by after_results_simp; rfl
theorem a_v13 : after hostOps0 W (Proc.devRef .tc main_v13) = val_main_v13 (F := Ideal) (W (Proc.devRef .tc main_arg1)) (W (Proc.devRef .tc main_arg2)) := by after_results_simp; rfl
theorem a_v14 : after hostOps0 W (Proc.devRef .tc main_v14) = val_main_v14 (F := Ideal) (W (Proc.devRef .tc main_arg1)) (W (Proc.devRef .tc main_arg2)) := by after_results_simp; rfl
theorem a_cst_2 : after hostOps0 W (Proc.devRef .tc main_cst_2) = val_main_cst_2 (F := Ideal) := by after_results_simp; rfl
theorem a_keep_arg0 : after hostOps0 W (Proc.devRef .tc main_arg0) = W (Proc.devRef .tc main_arg0) := by after_results_simp
theorem a_keep_arg3 : after hostOps0 W (Proc.devRef .tc main_arg3) = W (Proc.devRef .tc main_arg3) := by after_results_simp
theorem a_keep_arg4 : after hostOps0 W (Proc.devRef .tc main_arg4) = W (Proc.devRef .tc main_arg4) := by after_results_simp
theorem a_keep_arg5 : after hostOps0 W (Proc.devRef .tc main_arg5) = W (Proc.devRef .tc main_arg5) := by after_results_simp
theorem a_keep_arg6 : after hostOps0 W (Proc.devRef .tc main_arg6) = W (Proc.devRef .tc main_arg6) := by after_results_simp

/-! ## The inverse square root of the degree -/

theorem b_v15 : after hostOps0_1 W (Proc.devRef .tc main_v15) = Cert.Spec.invSqrt (W (Proc.devRef .tc main_v13)) (W (Proc.devRef .tc main_v14)) (W (Proc.devRef .tc main_cst_2)) := by after_results_simp; rfl
theorem b_keep_v3 : after hostOps0_1 W (Proc.devRef .tc main_v3) = W (Proc.devRef .tc main_v3) := by after_results_simp
theorem b_keep_v6 : after hostOps0_1 W (Proc.devRef .tc main_v6) = W (Proc.devRef .tc main_v6) := by after_results_simp
theorem b_keep_v8 : after hostOps0_1 W (Proc.devRef .tc main_v8) = W (Proc.devRef .tc main_v8) := by after_results_simp
theorem b_keep_arg0 : after hostOps0_1 W (Proc.devRef .tc main_arg0) = W (Proc.devRef .tc main_arg0) := by after_results_simp
theorem b_keep_arg3 : after hostOps0_1 W (Proc.devRef .tc main_arg3) = W (Proc.devRef .tc main_arg3) := by after_results_simp
theorem b_keep_arg4 : after hostOps0_1 W (Proc.devRef .tc main_arg4) = W (Proc.devRef .tc main_arg4) := by after_results_simp
theorem b_keep_arg5 : after hostOps0_1 W (Proc.devRef .tc main_arg5) = W (Proc.devRef .tc main_arg5) := by after_results_simp
theorem b_keep_arg6 : after hostOps0_1 W (Proc.devRef .tc main_arg6) = W (Proc.devRef .tc main_arg6) := by after_results_simp

/-! ## The per-edge coefficient -/

theorem c_v31 : after hostOps0_2 W (Proc.devRef .tc main_v31) = Cert.Spec.norm (W (Proc.devRef .tc main_v15)) (W (Proc.devRef .tc main_v3)) (W (Proc.devRef .tc main_v6)) (W (Proc.devRef .tc main_v8)) := by after_results_simp; rfl
theorem c_keep_v3 : after hostOps0_2 W (Proc.devRef .tc main_v3) = W (Proc.devRef .tc main_v3) := by after_results_simp
theorem c_keep_v6 : after hostOps0_2 W (Proc.devRef .tc main_v6) = W (Proc.devRef .tc main_v6) := by after_results_simp
theorem c_keep_arg0 : after hostOps0_2 W (Proc.devRef .tc main_arg0) = W (Proc.devRef .tc main_arg0) := by after_results_simp
theorem c_keep_arg3 : after hostOps0_2 W (Proc.devRef .tc main_arg3) = W (Proc.devRef .tc main_arg3) := by after_results_simp
theorem c_keep_arg4 : after hostOps0_2 W (Proc.devRef .tc main_arg4) = W (Proc.devRef .tc main_arg4) := by after_results_simp
theorem c_keep_arg5 : after hostOps0_2 W (Proc.devRef .tc main_arg5) = W (Proc.devRef .tc main_arg5) := by after_results_simp
theorem c_keep_arg6 : after hostOps0_2 W (Proc.devRef .tc main_arg6) = W (Proc.devRef .tc main_arg6) := by after_results_simp

/-! ## The first aggregation and the first bias row -/

theorem d_v45 : after hostOps1 W (Proc.devRef .tc main_v45) = Cert.Spec.agg64 (W (Proc.devRef .tc main_v32)) (W (Proc.devRef .tc main_v3)) (W (Proc.devRef .tc main_v6)) (W (Proc.devRef .tc main_v31)) := by after_results_simp; rfl
theorem d_v46 : after hostOps1 W (Proc.devRef .tc main_v46) = Cert.Spec.row64 (W (Proc.devRef .tc main_arg4)) := by after_results_simp; rfl
theorem d_keep_v3 : after hostOps1 W (Proc.devRef .tc main_v3) = W (Proc.devRef .tc main_v3) := by after_results_simp
theorem d_keep_v6 : after hostOps1 W (Proc.devRef .tc main_v6) = W (Proc.devRef .tc main_v6) := by after_results_simp
theorem d_keep_v31 : after hostOps1 W (Proc.devRef .tc main_v31) = W (Proc.devRef .tc main_v31) := by after_results_simp
theorem d_keep_arg5 : after hostOps1 W (Proc.devRef .tc main_arg5) = W (Proc.devRef .tc main_arg5) := by after_results_simp
theorem d_keep_arg6 : after hostOps1 W (Proc.devRef .tc main_arg6) = W (Proc.devRef .tc main_arg6) := by after_results_simp

/-! ## The second aggregation and the second bias row -/

theorem e_v61 : after hostOps3 W (Proc.devRef .tc main_v61) = Cert.Spec.agg40 (W (Proc.devRef .tc main_v48)) (W (Proc.devRef .tc main_v3)) (W (Proc.devRef .tc main_v6)) (W (Proc.devRef .tc main_v31)) := by after_results_simp; rfl
theorem e_v62 : after hostOps3 W (Proc.devRef .tc main_v62) = Cert.Spec.row40 (W (Proc.devRef .tc main_arg6)) := by after_results_simp; rfl

end Cert.KernelIdeal.HostStages

end
-- ==== Proof.Region0.lean ====
/-
  The first matmul region as one whole-array function.

  The region walks twenty blocks of 5000 rows of the [100000, 256] left operand; at each block it multiplies
  the block by the whole [256, 64] right operand into a zero accumulator (the change of float format on the way in is the
  identity on the extended reals).  Entry (r, q) of a block's product is the sum over k of left (r, k) · right (k, q),
  so it depends only on row r of the left operand: the array the region leaves has, at (r, q), that sum over the
  256 contraction indices, block t of it is what point t writes back, and the twenty blocks tile the array.
-/
import proofs.«164825_j75273596830285_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.MatmulA

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (r, q) of the product: the sum over the 256 contraction indices of left (r, k) · right (k, q). -/
def product (a : S100000x256.Idx → EReal) (w : S256x64.Idx → EReal) : S100000x64.Idx → EReal :=
  fun i => ∑ k : Fin 256, a (ix2 (⟨(i 0).val, (i 0).isLt⟩ : Fin 100000) k) * w (ix2 k (⟨(i 1).val, (i 1).isLt⟩ : Fin 64))

theorem hz : (![0, 0] : Fin 2 → Nat) = fun _ => 0 := funext fun a => by fin_cases a <;> rfl

/-- The left operand's index at output (p, q) and contraction index k keeps the row. -/
theorem lhs_row (i : S5000x64.Idx) (k : dot_S5000x256_S256x64_S5000x64_1_0_0_1_n_n.contr.Idx) : (dot_S5000x256_S256x64_S5000x64_1_0_0_1_n_n.lhsIdx i k 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl

/-- The right operand's index at output (p, q) and contraction index k keeps the column. -/
theorem rhs_col (i : S5000x64.Idx) (k : dot_S5000x256_S256x64_S5000x64_1_0_0_1_n_n.contr.Idx) : (dot_S5000x256_S256x64_S5000x64_1_0_0_1_n_n.rhsIdx i k 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The body's stored value at row p, column q of a block: the product sum over the contraction index. -/
theorem pay_at (x0 : Vec Ideal S5000x256 .f32) (x1 : Vec Ideal S256x64 .f32) (p : Fin 5000) (q : Fin 64) :
    k0_pay1 x0 x1 (ix2 p q) = ∑ k : Fin 256, x0 (ix2 p k) * x1 (ix2 k q) := by
  unfold k0_pay1
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact lhs_row _ _
    | ⟨1, _⟩ => exact (dot_S5000x256_S256x64_S5000x64_1_0_0_1_n_n.lhsIdx_val_of_single rfl (ix2 p q) _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (dot_S5000x256_S256x64_S5000x64_1_0_0_1_n_n.rhsIdx_val_of_single rfl (ix2 p q) _).trans hk
    | ⟨1, _⟩ => exact rhs_col _ _)
  rw [el, er]
  rfl

/-- The whole-array function read where a block's entry sits in the array: the sums agree term by term. -/
theorem at_block (A : S100000x256.Idx → EReal) (W : S256x64.Idx → EReal) (i2 : S100000x64.Idx)
    (l : Fin 256 → S100000x256.Idx) (r : Fin 256 → S256x64.Idx)
    (hl : ∀ k, l k = ix2 (⟨(i2 0).val, (i2 0).isLt⟩ : Fin 100000) k)
    (hr : ∀ k, r k = ix2 k (⟨(i2 1).val, (i2 1).isLt⟩ : Fin 64)) :
    (∑ k : Fin 256, A (l k) * W (r k)) = product A W i2 :=
  Finset.sum_congr rfl fun k _ => by rw [hl k, hr k]

/-- The printed index maps over the twenty points: the left and output blocks move together down the rows (block t
    starts at row 5000·t), the right operand's block stays at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array function of the arrays the region finds. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_at _ _ p q).trans ?_
  refine at_block (V c main_arg0) (V c main_arg3) (((cfg0.win 2).blk t).view.emb (ix2 p q))
    (fun k => ((cfg0.win 0).blk t).view.emb (ix2 p k)) (fun k => ((cfg0.win 1).blk t).view.emb (ix2 k q)) (fun k => ?_) (fun k => ?_)
  · funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  · funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The twenty blocks tile the array: row r lies in the block of point r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 64 ≤ (i 1).val ∧ (i 1).val < win0_2.index _ (1 : Fin 2) * 64 + 64; rw [e5]; omega

/-- The array the region leaves. -/
theorem final (c : Dev nD) : (dat0 V c).arrAt 2 cfg0.N = product (V c main_arg0) (V c main_arg3) :=
  (dat0 V c).arrAt_eq_of_cover 2 _ (fun t _ => flushed_eq V c t) cover

end Cert.KernelIdeal.MatmulA

end
-- ==== Proof.Region1.lean ====
/-
  The bias-and-relu region as one whole-array function.

  The region walks ten blocks of 10000 rows of the aggregated [100000, 64] array; at each block it adds the
  [1, 64] bias row to every row and takes the maximum with zero.  Each output block depends only on the matching
  input block and on the bias row, entry by entry, so the array the region leaves is  max (a + b, 0)  entry by entry:
  block t of that array is what point t writes back, and the ten blocks tile the array.
-/
import proofs.«164825_j75273596830285_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.BiasRelu

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (r, q) of the result: the aggregated entry plus the bias of lane q, cut off below at zero. -/
def biasRelu (a : S100000x64.Idx → EReal) (b : S1x64.Idx → EReal) : S100000x64.Idx → EReal :=
  fun i => max (a i + b (ix2 (0 : Fin 1) (⟨(i 1).val, (i 1).isLt⟩ : Fin 64))) (Ideal.ofBits .f32 0x00000000#32)

theorem hz : (![0, 0] : Fin 2 → Nat) = fun _ => 0 := funext fun a => by fin_cases a <;> rfl

/-- The body's stored value at row p, lane q of a block. -/
theorem pay_at (x0 : Vec Ideal S10000x64 .f32) (x1 : Vec Ideal S1x64 .f32) (p : Fin 10000) (q : Fin 64) :
    k1_pay1 x0 x1 (ix2 p q) = max (x0 (ix2 p q) + x1 (ix2 (0 : Fin 1) q)) (Ideal.ofBits .f32 0x00000000#32) := by
  unfold k1_pay1
  rw [maximumf_apply, addf_apply, shapeCast_self, shapeCast_self,
    broadcastTo_apply x1 broadcasts_S1x64_S10000x64 (ix2 p q) (ix2 (0 : Fin 1) q) (fun a => by
      match a with
      | ⟨0, _⟩ => rfl
      | ⟨1, _⟩ => rfl)]
  rfl

/-- The whole-array function read where a block's entry sits in the array. -/
theorem at_block (A : S100000x64.Idx → EReal) (B : S1x64.Idx → EReal) (i0 i2 : S100000x64.Idx) (i1 : S1x64.Idx)
    (h0 : i0 = i2) (h1 : i1 = ix2 (0 : Fin 1) (⟨(i2 1).val, (i2 1).isLt⟩ : Fin 64)) :
    max (A i0 + B i1) (Ideal.ofBits .f32 0x00000000#32) = biasRelu A B i2 := by
  subst h0; rw [h1]; rfl

/-- The printed index maps over the ten points: the input and output blocks move together down the rows (block t
    starts at row 10000·t), the bias block stays at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function of the arrays the region finds. -/
theorem flushed_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine (pay_at _ _ p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  exact at_block (V c main_v45) (V c main_v46) (((cfg1.win 0).blk t).view.emb (ix2 p q)) (((cfg1.win 2).blk t).view.emb (ix2 p q))
    (((cfg1.win 1).blk t).view.emb (ix2 (0 : Fin 1) q)) h0 h1

/-- An index of the array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- The ten blocks tile the array: row r lies in the block of point r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_2 _, ?_⟩
  rw [mem_blk]
  obtain ⟨e0, e1, e2, e3, e4, e5⟩ := idx_facts ⟨(i 0).val / 10000, by rw [hN]; omega⟩
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ _ ∧ _ < (i 0).val / 10000 * 10000 + 10000; omega
  | ⟨1, _⟩ => show win1_2.index _ (1 : Fin 2) * 64 ≤ (i 1).val ∧ (i 1).val < win1_2.index _ (1 : Fin 2) * 64 + 64; rw [e5]; omega

/-- The array the region leaves. -/
theorem final (c : Dev nD) : (dat1 V c).arrAt 2 cfg1.N = biasRelu (V c main_v45) (V c main_v46) :=
  (dat1 V c).arrAt_eq_of_cover 2 _ (fun t _ => flushed_eq V c t) cover

end Cert.KernelIdeal.BiasRelu

end
-- ==== Proof.Region2.lean ====
/-
  The second matmul region as one whole-array function.

  The region walks twenty blocks of 5000 rows of the [100000, 64] left operand; at each block it multiplies
  the block by the whole [64, 40] right operand into a zero accumulator (the change of float format on the way in is the
  identity on the extended reals).  Entry (r, q) of a block's product is the sum over k of left (r, k) · right (k, q),
  so it depends only on row r of the left operand: the array the region leaves has, at (r, q), that sum over the
  64 contraction indices, block t of it is what point t writes back, and the twenty blocks tile the array.
-/
import proofs.«164825_j75273596830285_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.MatmulB

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (r, q) of the product: the sum over the 64 contraction indices of left (r, k) · right (k, q). -/
def product (a : S100000x64.Idx → EReal) (w : S64x40.Idx → EReal) : S100000x40.Idx → EReal :=
  fun i => ∑ k : Fin 64, a (ix2 (⟨(i 0).val, (i 0).isLt⟩ : Fin 100000) k) * w (ix2 k (⟨(i 1).val, (i 1).isLt⟩ : Fin 40))

theorem hz : (![0, 0] : Fin 2 → Nat) = fun _ => 0 := funext fun a => by fin_cases a <;> rfl

/-- The left operand's index at output (p, q) and contraction index k keeps the row. -/
theorem lhs_row (i : S5000x40.Idx) (k : dot_S5000x64_S64x40_S5000x40_1_0_0_1_n_n.contr.Idx) : (dot_S5000x64_S64x40_S5000x40_1_0_0_1_n_n.lhsIdx i k 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl

/-- The right operand's index at output (p, q) and contraction index k keeps the column. -/
theorem rhs_col (i : S5000x40.Idx) (k : dot_S5000x64_S64x40_S5000x40_1_0_0_1_n_n.contr.Idx) : (dot_S5000x64_S64x40_S5000x40_1_0_0_1_n_n.rhsIdx i k 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The body's stored value at row p, column q of a block: the product sum over the contraction index. -/
theorem pay_at (x0 : Vec Ideal S5000x64 .f32) (x1 : Vec Ideal S64x40 .f32) (p : Fin 5000) (q : Fin 40) :
    k2_pay1 x0 x1 (ix2 p q) = ∑ k : Fin 64, x0 (ix2 p k) * x1 (ix2 k q) := by
  unfold k2_pay1
  simp only [matmul]
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k := funext fun a => Fin.ext (by
    match a with
    | ⟨0, _⟩ => exact lhs_row _ _
    | ⟨1, _⟩ => exact (dot_S5000x64_S64x40_S5000x40_1_0_0_1_n_n.lhsIdx_val_of_single rfl (ix2 p q) _).trans hk)
  have er : dot_S5000x64_S64x40_S5000x40_1_0_0_1_n_n.rhsIdx (ix2 p q) ((contrEquiv1 dot_S5000x64_S64x40_S5000x40_1_0_0_1_n_n 64 rfl rfl).symm k) = ix2 k q := funext fun a => Fin.ext (by
    match a with
    | ⟨0, _⟩ => exact (dot_S5000x64_S64x40_S5000x40_1_0_0_1_n_n.rhsIdx_val_of_single rfl (ix2 p q) _).trans hk
    | ⟨1, _⟩ => exact rhs_col _ _)
  rw [el, er]
  rw [truncf_apply, truncf_apply, shapeCast_self]

/-- The whole-array function read where a block's entry sits in the array: the sums agree term by term. -/
theorem at_block (A : S100000x64.Idx → EReal) (W : S64x40.Idx → EReal) (i2 : S100000x40.Idx)
    (l : Fin 64 → S100000x64.Idx) (r : Fin 64 → S64x40.Idx)
    (hl : ∀ k, l k = ix2 (⟨(i2 0).val, (i2 0).isLt⟩ : Fin 100000) k)
    (hr : ∀ k, r k = ix2 k (⟨(i2 1).val, (i2 1).isLt⟩ : Fin 40)) :
    (∑ k : Fin 64, A (l k) * W (r k)) = product A W i2 :=
  Finset.sum_congr rfl fun k _ => by rw [hl k, hr k]

/-- The printed index maps over the twenty points: the left and output blocks move together down the rows (block t
    starts at row 5000·t), the right operand's block stays at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array function of the arrays the region finds. -/
theorem flushed_eq (c : Dev nD) (t : Fin cfg2.N) :
    (dat2 V c).flushed 2 t = ((cfg2.win 2).blk t).view.read (Elt Ideal) (product (V c main_v47) (V c main_arg5)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x40) hz]
  obtain ⟨e0, e1, e2, e3, e4, e5⟩ := idx_facts t
  funext j
  obtain ⟨p, q, rfl⟩ : ∃ (p : Fin 5000) (q : Fin 40), j = ix2 p q := ⟨j 0, j 1, eq_ix2 j⟩
  refine (pay_at _ _ p q).trans ?_
  refine at_block (V c main_v47) (V c main_arg5) (((cfg2.win 2).blk t).view.emb (ix2 p q))
    (fun k => ((cfg2.win 0).blk t).view.emb (ix2 p k)) (fun k => ((cfg2.win 1).blk t).view.emb (ix2 k q)) (fun k => ?_) (fun k => ?_)
  · funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  · funext a; apply Fin.ext
    match a with
    | ⟨0, _⟩ => show win2_1.index t (0 : Fin 2) * 64 + 1 * k.val = k.val; omega
    | ⟨1, _⟩ => show win2_1.index t (1 : Fin 2) * 40 + 1 * q.val = win2_2.index t (1 : Fin 2) * 40 + 1 * q.val; omega

/-- An index of the array is in point t's block iff each coordinate is in the block's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v48).slice (win2_2.rect t)).set ↔ _
  rw [View.set_slice_whole, Rect.mem_set_unit]
  exact Iff.rfl

/-- The twenty blocks tile the array: row r lies in the block of point r / 5000. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_2 _, ?_⟩
  rw [mem_blk]
  obtain ⟨e0, e1, e2, e3, e4, e5⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
  | ⟨1, _⟩ => show win2_2.index _ (1 : Fin 2) * 40 ≤ (i 1).val ∧ (i 1).val < win2_2.index _ (1 : Fin 2) * 40 + 40; rw [e5]; omega

/-- The array the region leaves. -/
theorem final (c : Dev nD) : (dat2 V c).arrAt 2 cfg2.N = product (V c main_v47) (V c main_arg5) :=
  (dat2 V c).arrAt_eq_of_cover 2 _ (fun t _ => flushed_eq V c t) cover

end Cert.KernelIdeal.MatmulB

end
-- ==== Proof.Region3.lean ====
/-
  The bias-and-log-softmax region as two whole-array functions.

  The region walks ten blocks of 10000 rows of the aggregated [100000, 40] array.  At each block it adds the
  [1, 40] bias row to every row (the first result), and of each row v of that sum it takes the maximum M over the
  forty lanes (from −∞), the shifted row v − M, the logarithm L of the sum over the lanes of exp (v − M), and stores
  (v − M) − L (the second result).  Every entry of a result block depends only on the matching ROW of the input block
  and on the bias row, so each array the region leaves is a function of the aggregated array row by row:
  block t of it is what point t writes back, and the ten blocks tile the array.
-/
import proofs.«164825_j75273596830285_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LogSoftmax

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The log-softmax of one row of forty extended reals, at lane q: with M the maximum of the row (from −∞),
    (v q − M) − log (∑ exp (v − M)). -/
def rowLogSoftmax (v : Fin 40 → EReal) (q : Fin 40) : EReal :=
  (v q - (Finset.univ : Finset (Fin 40)).fold max (Ideal.ofBits .f32 0xFF800000#32) v)
    - Ideal.log (∑ k : Fin 40, Ideal.exp (v k - (Finset.univ : Finset (Fin 40)).fold max (Ideal.ofBits .f32 0xFF800000#32) v))

/-- Entry (r, q) of the first result: the aggregated entry plus the bias of lane q. -/
def biased (a : S100000x40.Idx → EReal) (b : S1x40.Idx → EReal) : S100000x40.Idx → EReal :=
  fun i => a i + b (ix2 (0 : Fin 1) (⟨(i 1).val, (i 1).isLt⟩ : Fin 40))

/-- Entry (r, q) of the second result: the log-softmax of row r of the first result, at lane q. -/
def logSoftmax (a : S100000x40.Idx → EReal) (b : S1x40.Idx → EReal) : S100000x40.Idx → EReal :=
  fun i => rowLogSoftmax (fun k => a (ix2 (⟨(i 0).val, (i 0).isLt⟩ : Fin 100000) k) + b (ix2 (0 : Fin 1) k)) (⟨(i 1).val, (i 1).isLt⟩ : Fin 40)

theorem hz : (![0, 0] : Fin 2 → Nat) = fun _ => 0 := funext fun a => by fin_cases a <;> rfl

/-- The first stored value at row p, lane q of a block. -/
theorem pay1_at (x0 : Vec Ideal S10000x40 .f32) (x1 : Vec Ideal S1x40 .f32) (p : Fin 10000) (q : Fin 40) :
    k3_pay1 x0 x1 (ix2 p q) = x0 (ix2 p q) + x1 (ix2 (0 : Fin 1) q) := by
  unfold k3_pay1
  rw [addf_apply, shapeCast_self, shapeCast_self,
    broadcastTo_apply x1 broadcasts_S1x40_S10000x40 (ix2 p q) (ix2 (0 : Fin 1) q) (fun a => by
      match a with
      | ⟨0, _⟩ => rfl
      | ⟨1, _⟩ => rfl)]

/-- A [10000] vector cast to a [10000, 1] column and broadcast along the lanes, read at (p, q), is entry p. -/
theorem column_at (u : FVec Ideal S10000 .f32) (p : Fin 10000) (q : Fin 40) :
    broadcastTo S10000x40 (shapeCast S10000x1 u shapeCasts_S10000_S10000x1) broadcasts_S10000x1_S10000x40 (ix2 p q) = u (ix1 p) := by
  rw [broadcastTo_apply _ broadcasts_S10000x1_S10000x40 (ix2 p q) (ix2 p (0 : Fin 1)) (fun a => by
      match a with
      | ⟨0, _⟩ => rfl
      | ⟨1, _⟩ => rfl)]
  exact shapeCast_apply u shapeCasts_S10000_S10000x1 (ix2 p (0 : Fin 1)) (ix1 p) (by
    rw [Shape.rowMajor_val_one, Shape.rowMajor_val_two]; show p.val = p.val * 1 + 0; omega)

/-- The reduced index p with lane k put back is (p, k). -/
theorem lift_at (h : S10000x40.Reduces [1] S10000) (p : Fin 10000) (k : Fin (S10000x40.size 1)) :
    h.lift (ix1 p) k = ix2 p (⟨k.val, k.isLt⟩ : Fin 40) := by
  funext a; apply Fin.ext
  fin_cases a <;> rfl

/-- A [10000, 1] column broadcast along the forty lanes, read at (p, q), is the column's entry p. -/
theorem bcol_at (u : FVec Ideal S10000x1 .f32) (p : Fin 10000) (q : Fin 40) :
    broadcastTo S10000x40 u broadcasts_S10000x1_S10000x40 (ix2 p q) = u (ix2 p (0 : Fin 1)) :=
  broadcastTo_apply u broadcasts_S10000x1_S10000x40 (ix2 p q) (ix2 p (0 : Fin 1)) (fun a => by
      match a with
      | ⟨0, _⟩ => rfl
      | ⟨1, _⟩ => rfl)

/-- A [10000] vector cast to a [10000, 1] column, read at (p, 0), is entry p. -/
theorem col_at (u : FVec Ideal S10000 .f32) (p : Fin 10000) :
    shapeCast S10000x1 u shapeCasts_S10000_S10000x1 (ix2 p (0 : Fin 1)) = u (ix1 p) :=
  shapeCast_apply u shapeCasts_S10000_S10000x1 (ix2 p (0 : Fin 1)) (ix1 p) (by
    rw [Shape.rowMajor_val_one, Shape.rowMajor_val_two]; show p.val = p.val * 1 + 0; omega)

/-- The maximum over the lanes of row p of a block (from −∞), as a fold over the forty lanes. -/
theorem rowmax_at (P : FVec Ideal S10000x40 .f32) (p : Fin 10000) :
    multiReduction .maximumf [1] S10000 P 0xFF800000#32 reduces_S10000x40_S10000 (.inl rfl) rfl (ix1 p)
      = (Finset.univ : Finset (Fin 40)).fold max (Ideal.ofBits .f32 0xFF800000#32) (fun k => P (ix2 p k)) := by
  refine (Ideal.multiReduction_maximumf_single P 0xFF800000#32 reduces_S10000x40_S10000 (.inl rfl) rfl (ix1 p)).trans ?_
  exact congrArg (fun f => Finset.fold max (Ideal.ofBits .f32 0xFF800000#32) f (Finset.univ : Finset (Fin 40)))
    (funext fun k => congrArg P (lift_at reduces_S10000x40_S10000 p k))

/-- The sum over the lanes of row p of a block. -/
theorem rowsum_at (E : FVec Ideal S10000x40 .f32) (p : Fin 10000) :
    multiReduction .add [1] S10000 E 0x00000000#32 reduces_S10000x40_S10000 (.inl rfl) rfl (ix1 p)
      = ∑ k : Fin 40, E (ix2 p k) := by
  refine (Ideal.multiReduction_add_single E 0x00000000#32 reduces_S10000x40_S10000 (.inl rfl) rfl (ix1 p)).trans ?_
  exact Finset.sum_congr rfl fun k _ => congrArg E (lift_at reduces_S10000x40_S10000 p k)

/-- The second stored value at row p, lane q of a block: the log-softmax of row p of the biased block. -/
theorem pay2_at (x0 : Vec Ideal S10000x40 .f32) (x1 : Vec Ideal S1x40 .f32) (p : Fin 10000) (q : Fin 40) :
    k3_pay2 x0 x1 (ix2 p q) = rowLogSoftmax (fun k => x0 (ix2 p k) + x1 (ix2 (0 : Fin 1) k)) q := by
  have hP : ∀ k : Fin 40, k3_pay1 x0 x1 (ix2 p k) = x0 (ix2 p k) + x1 (ix2 (0 : Fin 1) k) := fun k => pay1_at x0 x1 p k
  have hM : multiReduction .maximumf [1] S10000 (k3_pay1 x0 x1) 0xFF800000#32 reduces_S10000x40_S10000 (.inl rfl) rfl (ix1 p)
      = (Finset.univ : Finset (Fin 40)).fold max (Ideal.ofBits .f32 0xFF800000#32) (fun k => x0 (ix2 p k) + x1 (ix2 (0 : Fin 1) k)) :=
    (rowmax_at _ p).trans (congrArg (fun f => Finset.fold max (Ideal.ofBits .f32 0xFF800000#32) f (Finset.univ : Finset (Fin 40))) (funext hP))
  have hE : ∀ k : Fin 40, exp (subf (k3_pay1 x0 x1) (broadcastTo S10000x40 (shapeCast S10000x1
        (multiReduction .maximumf [1] S10000 (k3_pay1 x0 x1) 0xFF800000#32 reduces_S10000x40_S10000 (.inl rfl) rfl)
        shapeCasts_S10000_S10000x1) broadcasts_S10000x1_S10000x40)) (ix2 p k)
      = Ideal.exp ((x0 (ix2 p k) + x1 (ix2 (0 : Fin 1) k))
          - (Finset.univ : Finset (Fin 40)).fold max (Ideal.ofBits .f32 0xFF800000#32) (fun k => x0 (ix2 p k) + x1 (ix2 (0 : Fin 1) k))) := fun k => by
    show Ideal.exp (k3_pay1 x0 x1 (ix2 p k) - broadcastTo S10000x40 _ broadcasts_S10000x1_S10000x40 (ix2 p k)) = _
    rw [bcol_at, col_at, hM, hP]
  unfold k3_pay2
  rw [subf_apply, subf_apply, bcol_at, bcol_at, col_at, hM, hP]
  change _ - Ideal.log (shapeCast S10000x1 _ shapeCasts_S10000_S10000x1 (ix2 p (0 : Fin 1))) = _
  rw [col_at, rowsum_at]
  unfold rowLogSoftmax
  exact congrArg (fun s => (x0 (ix2 p q) + x1 (ix2 (0 : Fin 1) q)
      - (Finset.univ : Finset (Fin 40)).fold max (Ideal.ofBits .f32 0xFF800000#32) (fun k => x0 (ix2 p k) + x1 (ix2 (0 : Fin 1) k))) - Ideal.log s)
    (Finset.sum_congr rfl fun k _ => hE k)

/-- The first whole-array function read where a block's entry sits in the array. -/
theorem at_block_biased (A : S100000x40.Idx → EReal) (B : S1x40.Idx → EReal) (i0 i2 : S100000x40.Idx) (i1 : S1x40.Idx)
    (h0 : i0 = i2) (h1 : i1 = ix2 (0 : Fin 1) (⟨(i2 1).val, (i2 1).isLt⟩ : Fin 40)) :
    A i0 + B i1 = biased A B i2 := by
  subst h0; rw [h1]; rfl

/-- The second whole-array function read where a block's entry sits in the array: the rows agree lane by lane. -/
theorem at_block_logSoftmax (A : S100000x40.Idx → EReal) (B : S1x40.Idx → EReal) (i2 : S100000x40.Idx)
    (l : Fin 40 → S100000x40.Idx) (r : Fin 40 → S1x40.Idx) (q : Fin 40)
    (hl : ∀ k, l k = ix2 (⟨(i2 0).val, (i2 0).isLt⟩ : Fin 100000) k) (hr : ∀ k, r k = ix2 (0 : Fin 1) k)
    (hq : q = (⟨(i2 1).val, (i2 1).isLt⟩ : Fin 40)) :
    rowLogSoftmax (fun k => A (l k) + B (r k)) q = logSoftmax A B i2 := by
  subst hq
  unfold logSoftmax
  exact congrArg (fun f => rowLogSoftmax f _) (funext fun k => by rw [hl k, hr k])

/-- The printed index maps over the ten points: the input and both output blocks move together down the rows (block t
    starts at row 10000·t), the bias block stays at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back to the first result is block t of the biased array. -/
theorem flushed_biased (c : Dev nD) (t : Fin cfg3.N) :
    (dat3 V c).flushed 2 t = ((cfg3.win 2).blk t).view.read (Elt Ideal) (biased (V c main_v61) (V c main_v62)) := by
  show (cfg3.win 2).cut (grid3.coords t) ((dat3 V c).after 2 t) = _
  rw [after3_2]
  unfold out3_2
  rw [View.canon_unit_zero hz]
  simp only [View.ld_unit_zero (S := S10000x40) hz, View.ld_unit_zero (S := S1x40) hz]
  obtain ⟨e0, e1, e2, e3, e4, e5, e6, e7⟩ := idx_facts t
  funext j
  obtain ⟨p, q, rfl⟩ : ∃ (p : Fin 10000) (q : Fin 40), j = ix2 p q := ⟨j 0, j 1, eq_ix2 j⟩
  refine (pay1_at _ _ p q).trans ?_
  refine at_block_biased (V c main_v61) (V c main_v62) (((cfg3.win 0).blk t).view.emb (ix2 p q)) (((cfg3.win 2).blk t).view.emb (ix2 p q))
    (((cfg3.win 1).blk t).view.emb (ix2 (0 : Fin 1) q)) ?_ ?_
  · funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 40 + 1 * q.val = win3_2.index t (1 : Fin 2) * 40 + 1 * q.val; omega
  · funext a; apply Fin.ext
    match a with
    | ⟨0, _⟩ => show win3_1.index t (0 : Fin 2) * 1 + 1 * 0 = 0; omega
    | ⟨1, _⟩ => show win3_1.index t (1 : Fin 2) * 40 + 1 * q.val = win3_2.index t (1 : Fin 2) * 40 + 1 * q.val; omega

/-- What point t writes back to the second result is block t of the log-softmax array. -/
theorem flushed_logSoftmax (c : Dev nD) (t : Fin cfg3.N) :
    (dat3 V c).flushed 3 t = ((cfg3.win 3).blk t).view.read (Elt Ideal) (logSoftmax (V c main_v61) (V c main_v62)) := by
  show (cfg3.win 3).cut (grid3.coords t) ((dat3 V c).after 3 t) = _
  rw [after3_3]
  unfold out3_3
  rw [View.canon_unit_zero hz]
  simp only [View.ld_unit_zero (S := S10000x40) hz, View.ld_unit_zero (S := S1x40) hz]
  obtain ⟨e0, e1, e2, e3, e4, e5, e6, e7⟩ := idx_facts t
  funext j
  obtain ⟨p, q, rfl⟩ : ∃ (p : Fin 10000) (q : Fin 40), j = ix2 p q := ⟨j 0, j 1, eq_ix2 j⟩
  refine (pay2_at _ _ p q).trans ?_
  refine at_block_logSoftmax (V c main_v61) (V c main_v62) (((cfg3.win 3).blk t).view.emb (ix2 p q))
    (fun k => ((cfg3.win 0).blk t).view.emb (ix2 p k)) (fun k => ((cfg3.win 1).blk t).view.emb (ix2 (0 : Fin 1) k)) q (fun k => ?_) (fun k => ?_) ?_
  · funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 40 + 1 * k.val = k.val; omega
  · funext a; apply Fin.ext
    match a with
    | ⟨0, _⟩ => show win3_1.index t (0 : Fin 2) * 1 + 1 * 0 = 0; omega
    | ⟨1, _⟩ => show win3_1.index t (1 : Fin 2) * 40 + 1 * k.val = k.val; omega
  · apply Fin.ext
    show q.val = win3_3.index t (1 : Fin 2) * 40 + 1 * q.val; omega

/-- An index of the first result's array is in point t's block iff each coordinate is in the block's range. -/
theorem mem_blk_biased (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v63_0).slice (win3_2.rect t)).set ↔ _
  rw [View.set_slice_whole, Rect.mem_set_unit]
  exact Iff.rfl

/-- An index of the second result's array is in point t's block iff each coordinate is in the block's range. -/
theorem mem_blk_logSoftmax (t : Fin cfg3.N) (i : S100000x40.Idx) :
    i ∈ ((cfg3.win 3).blk t).view.set ↔ ∀ a : Fin 2, win3_3.index t a * S10000x40.size a ≤ (i a).val ∧ (i a).val < win3_3.index t a * S10000x40.size a + S10000x40.size a := by
  show i ∈ ((View.whole main_v63_1).slice (win3_3.rect t)).set ↔ _
  rw [View.set_slice_whole, Rect.mem_set_unit]
  exact Iff.rfl

/-- The ten blocks tile the first result: row r lies in the block of point r / 10000. -/
theorem cover_biased (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 10 := N_3
  refine ⟨⟨(i 0).val / 10000, by rw [hN]; omega⟩, flush3_2 _, ?_⟩
  rw [mem_blk_biased]
  obtain ⟨e0, e1, e2, e3, e4, e5, e6, e7⟩ := idx_facts ⟨(i 0).val / 10000, by rw [hN]; omega⟩
  intro a
  match a with
  | ⟨0, _⟩ => show win3_2.index _ (0 : Fin 2) * 10000 ≤ (i 0).val ∧ (i 0).val < win3_2.index _ (0 : Fin 2) * 10000 + 10000; rw [e4]; show (i 0).val / 10000 * 10000 ≤ _ ∧ _ < (i 0).val / 10000 * 10000 + 10000; omega
  | ⟨1, _⟩ => show win3_2.index _ (1 : Fin 2) * 40 ≤ (i 1).val ∧ (i 1).val < win3_2.index _ (1 : Fin 2) * 40 + 40; rw [e5]; omega

/-- The ten blocks tile the second result likewise. -/
theorem cover_logSoftmax (i : S100000x40.Idx) : ∃ t : Fin cfg3.N, (cfg3.win 3).flush t = true ∧ i ∈ ((cfg3.win 3).blk t).view.set := by
  have hi0 : (i 0).val < 100000 := (i 0).isLt
  have hi1 : (i 1).val < 40 := (i 1).isLt
  have hN : cfg3.N = 10 := N_3
  refine ⟨⟨(i 0).val / 10000, by rw [hN]; omega⟩, flush3_3 _, ?_⟩
  rw [mem_blk_logSoftmax]
  obtain ⟨e0, e1, e2, e3, e4, e5, e6, e7⟩ := idx_facts ⟨(i 0).val / 10000, by rw [hN]; omega⟩
  intro a
  match a with
  | ⟨0, _⟩ => show win3_3.index _ (0 : Fin 2) * 10000 ≤ (i 0).val ∧ (i 0).val < win3_3.index _ (0 : Fin 2) * 10000 + 10000; rw [e6]; show (i 0).val / 10000 * 10000 ≤ _ ∧ _ < (i 0).val / 10000 * 10000 + 10000; omega
  | ⟨1, _⟩ => show win3_3.index _ (1 : Fin 2) * 40 ≤ (i 1).val ∧ (i 1).val < win3_3.index _ (1 : Fin 2) * 40 + 40; rw [e7]; omega

/-- The first array the region leaves. -/
theorem final_biased (c : Dev nD) : (dat3 V c).arrAt 2 cfg3.N = biased (V c main_v61) (V c main_v62) :=
  (dat3 V c).arrAt_eq_of_cover 2 _ (fun t _ => flushed_biased V c t) cover_biased

/-- The second array the region leaves. -/
theorem final_logSoftmax (c : Dev nD) : (dat3 V c).arrAt 3 cfg3.N = logSoftmax (V c main_v61) (V c main_v62) :=
  (dat3 V c).arrAt_eq_of_cover 3 _ (fun t _ => flushed_logSoftmax V c t) cover_logSoftmax

end Cert.KernelIdeal.LogSoftmax

end
-- ==== Proof.KernelValue.lean ====
/-
  The idealized kernel's two results as functions of its arguments.

  Walking the nine segments from the launch memory: after the three normalisation stretches the edge lists and the
  per-edge coefficient are the shared stage functions of the edge arguments; the first matmul region leaves the
  product of the features with the first weights; the next stretch aggregates it; the bias-and-relu region leaves
  the hidden layer; the second matmul region its product with the second weights; the next stretch aggregates that;
  and the last region leaves the biased aggregation and its row-wise log-softmax.  Every buffer a segment does not
  write keeps what the segment before left in it.
-/
import proofs.«164825_j75273596830285_1_alg».proof.Proof.KernelRun
import proofs.«164825_j75273596830285_1_alg».proof.Proof.KernelHost
import proofs.«164825_j75273596830285_1_alg».proof.Proof.Region0
import proofs.«164825_j75273596830285_1_alg».proof.Proof.Region1
import proofs.«164825_j75273596830285_1_alg».proof.Proof.Region2
import proofs.«164825_j75273596830285_1_alg».proof.Proof.Region3

set_option maxRecDepth 16384

noncomputable section

namespace Cert.KernelIdeal.Result

open Cert.KernelIdeal Cert.KernelIdeal.Gen Cert.KernelIdeal.HostStages Cert.Spec
open Idealize.ShloMosaic Idealize.ShloMosaic.TcCoe Idealize.SL.Sem Idealize.ShloMosaic.StableHlo
open Cert.ReferenceIdeal.Read (val_main_v3 val_main_v6 val_main_v8 val_main_v13 val_main_v14 val_main_v15 val_main_v31 val_main_cst_2)

/-- The first aggregation Â · (x W₁), with the kernel's whole-array product. -/
def layer1 (x0 : F32 Cert.ReferenceIdeal.S100000x256) (x1 : I32 Cert.ReferenceIdeal.S2x1600000) (x2 : F32 Cert.ReferenceIdeal.S1600000)
    (x3 : F32 Cert.ReferenceIdeal.S256x64) : F32 Cert.ReferenceIdeal.S100000x64 :=
  agg64 (MatmulA.product x0 x3) (val_main_v3 (F := Ideal) x1) (val_main_v6 (F := Ideal) x1) (val_main_v31 (F := Ideal) x1 x2)

/-- The second aggregation Â · (relu (layer1 + b₁) W₂), with the kernel's whole-array functions. -/
def layer2 (x0 : F32 Cert.ReferenceIdeal.S100000x256) (x1 : I32 Cert.ReferenceIdeal.S2x1600000) (x2 : F32 Cert.ReferenceIdeal.S1600000)
    (x3 : F32 Cert.ReferenceIdeal.S256x64) (x4 : F32 Cert.ReferenceIdeal.S64) (x5 : F32 Cert.ReferenceIdeal.S64x40) : F32 Cert.ReferenceIdeal.S100000x40 :=
  agg40 (MatmulB.product (BiasRelu.biasRelu (layer1 x0 x1 x2 x3) (row64 x4)) x5) (val_main_v3 (F := Ideal) x1) (val_main_v6 (F := Ideal) x1) (val_main_v31 (F := Ideal) x1 x2)

variable (m : (ℓ : Loc nD τ sig) → Buf (Elt Ideal) ℓ) (ρ : Dev nD → PrngReg) (c : Dev nD)

/-! ## After the edge lists, the weights and the degree -/

theorem w1_v3 : W1 m ρ c (Proc.devRef .tc main_v3) = (val_main_v3 (F := Ideal) (m ((c : Thread nD τ).loc main_arg1))) := a_v3 _
theorem w1_v6 : W1 m ρ c (Proc.devRef .tc main_v6) = (val_main_v6 (F := Ideal) (m ((c : Thread nD τ).loc main_arg1))) := a_v6 _
theorem w1_v8 : W1 m ρ c (Proc.devRef .tc main_v8) = (val_main_v8 (F := Ideal) (m ((c : Thread nD τ).loc main_arg2))) := a_v8 _
theorem w1_v13 : W1 m ρ c (Proc.devRef .tc main_v13) = (val_main_v13 (F := Ideal) (m ((c : Thread nD τ).loc main_arg1)) (m ((c : Thread nD τ).loc main_arg2))) := a_v13 _
theorem w1_v14 : W1 m ρ c (Proc.devRef .tc main_v14) = (val_main_v14 (F := Ideal) (m ((c : Thread nD τ).loc main_arg1)) (m ((c : Thread nD τ).loc main_arg2))) := a_v14 _
theorem w1_cst_2 : W1 m ρ c (Proc.devRef .tc main_cst_2) = val_main_cst_2 (F := Ideal) := a_cst_2 _
theorem w1_arg0 : W1 m ρ c (Proc.devRef .tc main_arg0) = (m ((c : Thread nD τ).loc main_arg0)) := a_keep_arg0 _
theorem w1_arg3 : W1 m ρ c (Proc.devRef .tc main_arg3) = (m ((c : Thread nD τ).loc main_arg3)) := a_keep_arg3 _
theorem w1_arg4 : W1 m ρ c (Proc.devRef .tc main_arg4) = (m ((c : Thread nD τ).loc main_arg4)) := a_keep_arg4 _
theorem w1_arg5 : W1 m ρ c (Proc.devRef .tc main_arg5) = (m ((c : Thread nD τ).loc main_arg5)) := a_keep_arg5 _
theorem w1_arg6 : W1 m ρ c (Proc.devRef .tc main_arg6) = (m ((c : Thread nD τ).loc main_arg6)) := a_keep_arg6 _

/-! ## After the inverse square root -/

theorem w2_v15 : W2 m ρ c (Proc.devRef .tc main_v15) = (val_main_v15 (F := Ideal) (m ((c : Thread nD τ).loc main_arg1)) (m ((c : Thread nD τ).loc main_arg2))) := by
  refine (b_v15 (W1 m ρ c)).trans ?_
  rw [w1_v13 m ρ c, w1_v14 m ρ c, w1_cst_2 m ρ c]
  exact (v15_eq _ _).symm
theorem w2_v3 : W2 m ρ c (Proc.devRef .tc main_v3) = (val_main_v3 (F := Ideal) (m ((c : Thread nD τ).loc main_arg1))) := (b_keep_v3 _).trans (w1_v3 m ρ c)
theorem w2_v6 : W2 m ρ c (Proc.devRef .tc main_v6) = (val_main_v6 (F := Ideal) (m ((c : Thread nD τ).loc main_arg1))) := (b_keep_v6 _).trans (w1_v6 m ρ c)
theorem w2_v8 : W2 m ρ c (Proc.devRef .tc main_v8) = (val_main_v8 (F := Ideal) (m ((c : Thread nD τ).loc main_arg2))) := (b_keep_v8 _).trans (w1_v8 m ρ c)
theorem w2_arg0 : W2 m ρ c (Proc.devRef .tc main_arg0) = (m ((c : Thread nD τ).loc main_arg0)) := (b_keep_arg0 _).trans (w1_arg0 m ρ c)
theorem w2_arg3 : W2 m ρ c (Proc.devRef .tc main_arg3) = (m ((c : Thread nD τ).loc main_arg3)) := (b_keep_arg3 _).trans (w1_arg3 m ρ c)
theorem w2_arg4 : W2 m ρ c (Proc.devRef .tc main_arg4) = (m ((c : Thread nD τ).loc main_arg4)) := (b_keep_arg4 _).trans (w1_arg4 m ρ c)
theorem w2_arg5 : W2 m ρ c (Proc.devRef .tc main_arg5) = (m ((c : Thread nD τ).loc main_arg5)) := (b_keep_arg5 _).trans (w1_arg5 m ρ c)
theorem w2_arg6 : W2 m ρ c (Proc.devRef .tc main_arg6) = (m ((c : Thread nD τ).loc main_arg6)) := (b_keep_arg6 _).trans (w1_arg6 m ρ c)

/-! ## After the per-edge coefficient: the first region's entry -/

theorem w3_v31 : W3 m ρ c (Proc.devRef .tc main_v31) = (val_main_v31 (F := Ideal) (m ((c : Thread nD τ).loc main_arg1)) (m ((c : Thread nD τ).loc main_arg2))) := by
  refine (c_v31 (W2 m ρ c)).trans ?_
  rw [w2_v15 m ρ c, w2_v3 m ρ c, w2_v6 m ρ c, w2_v8 m ρ c]
  exact (v31_eq _ _).symm
theorem w3_v3 : W3 m ρ c (Proc.devRef .tc main_v3) = (val_main_v3 (F := Ideal) (m ((c : Thread nD τ).loc main_arg1))) := (c_keep_v3 _).trans (w2_v3 m ρ c)
theorem w3_v6 : W3 m ρ c (Proc.devRef .tc main_v6) = (val_main_v6 (F := Ideal) (m ((c : Thread nD τ).loc main_arg1))) := (c_keep_v6 _).trans (w2_v6 m ρ c)
theorem w3_arg0 : W3 m ρ c (Proc.devRef .tc main_arg0) = (m ((c : Thread nD τ).loc main_arg0)) := (c_keep_arg0 _).trans (w2_arg0 m ρ c)
theorem w3_arg3 : W3 m ρ c (Proc.devRef .tc main_arg3) = (m ((c : Thread nD τ).loc main_arg3)) := (c_keep_arg3 _).trans (w2_arg3 m ρ c)
theorem w3_arg4 : W3 m ρ c (Proc.devRef .tc main_arg4) = (m ((c : Thread nD τ).loc main_arg4)) := (c_keep_arg4 _).trans (w2_arg4 m ρ c)
theorem w3_arg5 : W3 m ρ c (Proc.devRef .tc main_arg5) = (m ((c : Thread nD τ).loc main_arg5)) := (c_keep_arg5 _).trans (w2_arg5 m ρ c)
theorem w3_arg6 : W3 m ρ c (Proc.devRef .tc main_arg6) = (m ((c : Thread nD τ).loc main_arg6)) := (c_keep_arg6 _).trans (w2_arg6 m ρ c)

/-! ## After the first matmul region -/

theorem w4_v32 : W4 m ρ c (Proc.devRef .tc main_v32) = MatmulA.product (m ((c : Thread nD τ).loc main_arg0)) (m ((c : Thread nD τ).loc main_arg3)) := by
  refine (W4_arr m ρ c 2).trans ?_
  refine (MatmulA.final (V3 m ρ) c).trans ?_
  show MatmulA.product (W3 m ρ c (Proc.devRef .tc main_arg0)) (W3 m ρ c (Proc.devRef .tc main_arg3)) = _
  rw [w3_arg0 m ρ c, w3_arg3 m ρ c]
theorem w4_v3 : W4 m ρ c (Proc.devRef .tc main_v3) = (val_main_v3 (F := Ideal) (m ((c : Thread nD τ).loc main_arg1))) := (W4_of_ne m ρ c main_v3 (by decide)).trans (w3_v3 m ρ c)
theorem w4_v6 : W4 m ρ c (Proc.devRef .tc main_v6) = (val_main_v6 (F := Ideal) (m ((c : Thread nD τ).loc main_arg1))) := (W4_of_ne m ρ c main_v6 (by decide)).trans (w3_v6 m ρ c)
theorem w4_v31 : W4 m ρ c (Proc.devRef .tc main_v31) = (val_main_v31 (F := Ideal) (m ((c : Thread nD τ).loc main_arg1)) (m ((c : Thread nD τ).loc main_arg2))) := (W4_of_ne m ρ c main_v31 (by decide)).trans (w3_v31 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)

/-! ## After the first aggregation: the bias-and-relu region's entry -/

theorem w5_v45 : W5 m ρ c (Proc.devRef .tc main_v45) = (layer1 (m ((c : Thread nD τ).loc main_arg0)) (m ((c : Thread nD τ).loc main_arg1)) (m ((c : Thread nD τ).loc main_arg2)) (m ((c : Thread nD τ).loc main_arg3))) := by
  refine (d_v45 (W4 m ρ c)).trans ?_
  rw [w4_v32 m ρ c, w4_v3 m ρ c, w4_v6 m ρ c, w4_v31 m ρ c]
  rfl
theorem w5_v46 : W5 m ρ c (Proc.devRef .tc main_v46) = row64 (m ((c : Thread nD τ).loc main_arg4)) := by
  refine (d_v46 (W4 m ρ c)).trans ?_
  rw [w4_arg4 m ρ c]
theorem w5_v3 : W5 m ρ c (Proc.devRef .tc main_v3) = (val_main_v3 (F := Ideal) (m ((c : Thread nD τ).loc main_arg1))) := (d_keep_v3 _).trans (w4_v3 m ρ c)
theorem w5_v6 : W5 m ρ c (Proc.devRef .tc main_v6) = (val_main_v6 (F := Ideal) (m ((c : Thread nD τ).loc main_arg1))) := (d_keep_v6 _).trans (w4_v6 m ρ c)
theorem w5_v31 : W5 m ρ c (Proc.devRef .tc main_v31) = (val_main_v31 (F := Ideal) (m ((c : Thread nD τ).loc main_arg1)) (m ((c : Thread nD τ).loc main_arg2))) := (d_keep_v31 _).trans (w4_v31 m ρ c)
theorem w5_arg5 : W5 m ρ c (Proc.devRef .tc main_arg5) = (m ((c : Thread nD τ).loc main_arg5)) := (d_keep_arg5 _).trans (w4_arg5 m ρ c)
theorem w5_arg6 : W5 m ρ c (Proc.devRef .tc main_arg6) = (m ((c : Thread nD τ).loc main_arg6)) := (d_keep_arg6 _).trans (w4_arg6 m ρ c)

/-! ## After the bias-and-relu region: the second matmul region's entry -/

theorem w6_v47 : W6 m ρ c (Proc.devRef .tc main_v47) = (BiasRelu.biasRelu (layer1 (m ((c : Thread nD τ).loc main_arg0)) (m ((c : Thread nD τ).loc main_arg1)) (m ((c : Thread nD τ).loc main_arg2)) (m ((c : Thread nD τ).loc main_arg3))) (row64 (m ((c : Thread nD τ).loc main_arg4)))) := by
  refine (W6_arr m ρ c 2).trans ?_
  refine (BiasRelu.final (V5 m ρ) c).trans ?_
  show BiasRelu.biasRelu (W5 m ρ c (Proc.devRef .tc main_v45)) (W5 m ρ c (Proc.devRef .tc main_v46)) = _
  rw [w5_v45 m ρ c, w5_v46 m ρ c]
theorem w6_v3 : W6 m ρ c (Proc.devRef .tc main_v3) = (val_main_v3 (F := Ideal) (m ((c : Thread nD τ).loc main_arg1))) := (W6_of_ne m ρ c main_v3 (by decide)).trans (w5_v3 m ρ c)
theorem w6_v6 : W6 m ρ c (Proc.devRef .tc main_v6) = (val_main_v6 (F := Ideal) (m ((c : Thread nD τ).loc main_arg1))) := (W6_of_ne m ρ c main_v6 (by decide)).trans (w5_v6 m ρ c)
theorem w6_v31 : W6 m ρ c (Proc.devRef .tc main_v31) = (val_main_v31 (F := Ideal) (m ((c : Thread nD τ).loc main_arg1)) (m ((c : Thread nD τ).loc main_arg2))) := (W6_of_ne m ρ c main_v31 (by decide)).trans (w5_v31 m ρ c)
theorem w6_arg5 : W6 m ρ c (Proc.devRef .tc main_arg5) = (m ((c : Thread nD τ).loc main_arg5)) := (W6_of_ne m ρ c main_arg5 (by decide)).trans (w5_arg5 m ρ c)
theorem w6_arg6 : W6 m ρ c (Proc.devRef .tc main_arg6) = (m ((c : Thread nD τ).loc main_arg6)) := (W6_of_ne m ρ c main_arg6 (by decide)).trans (w5_arg6 m ρ c)

/-! ## After the second matmul region -/

theorem w7_v48 : W7 m ρ c (Proc.devRef .tc main_v48) = MatmulB.product (BiasRelu.biasRelu (layer1 (m ((c : Thread nD τ).loc main_arg0)) (m ((c : Thread nD τ).loc main_arg1)) (m ((c : Thread nD τ).loc main_arg2)) (m ((c : Thread nD τ).loc main_arg3))) (row64 (m ((c : Thread nD τ).loc main_arg4)))) (m ((c : Thread nD τ).loc main_arg5)) := by
  refine (W7_arr m ρ c 2).trans ?_
  refine (MatmulB.final (V6 m ρ) c).trans ?_
  show MatmulB.product (W6 m ρ c (Proc.devRef .tc main_v47)) (W6 m ρ c (Proc.devRef .tc main_arg5)) = _
  rw [w6_v47 m ρ c, w6_arg5 m ρ c]
theorem w7_v3 : W7 m ρ c (Proc.devRef .tc main_v3) = (val_main_v3 (F := Ideal) (m ((c : Thread nD τ).loc main_arg1))) := (W7_of_ne m ρ c main_v3 (by decide)).trans (w6_v3 m ρ c)
theorem w7_v6 : W7 m ρ c (Proc.devRef .tc main_v6) = (val_main_v6 (F := Ideal) (m ((c : Thread nD τ).loc main_arg1))) := (W7_of_ne m ρ c main_v6 (by decide)).trans (w6_v6 m ρ c)
theorem w7_v31 : W7 m ρ c (Proc.devRef .tc main_v31) = (val_main_v31 (F := Ideal) (m ((c : Thread nD τ).loc main_arg1)) (m ((c : Thread nD τ).loc main_arg2))) := (W7_of_ne m ρ c main_v31 (by decide)).trans (w6_v31 m ρ c)
theorem w7_arg6 : W7 m ρ c (Proc.devRef .tc main_arg6) = (m ((c : Thread nD τ).loc main_arg6)) := (W7_of_ne m ρ c main_arg6 (by decide)).trans (w6_arg6 m ρ c)

/-! ## After the second aggregation: the last region's entry -/

theorem w8_v61 : W8 m ρ c (Proc.devRef .tc main_v61) = (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (e_v61 (W7 m ρ c)).trans ?_
  rw [w7_v48 m ρ c, w7_v3 m ρ c, w7_v6 m ρ c, w7_v31 m ρ c]
  rfl
theorem w8_v62 : W8 m ρ c (Proc.devRef .tc main_v62) = row40 (m ((c : Thread nD τ).loc main_arg6)) := by
  refine (e_v62 (W7 m ρ c)).trans ?_
  rw [w7_arg6 m ρ c]

/-! ## The two results -/

/-- The first result: the second aggregation plus the bias. -/
theorem out0 : W9 m ρ c (Proc.devRef .tc main_v63_0) = LogSoftmax.biased (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (row40 (m ((c : Thread nD τ).loc main_arg6))) := by
  refine (W9_arr m ρ c 2).trans ?_
  refine (LogSoftmax.final_biased (V8 m ρ) c).trans ?_
  show LogSoftmax.biased (W8 m ρ c (Proc.devRef .tc main_v61)) (W8 m ρ c (Proc.devRef .tc main_v62)) = _
  rw [w8_v61 m ρ c, w8_v62 m ρ c]

/-- The second result: its row-wise log-softmax. -/
theorem out1 : W9 m ρ c (Proc.devRef .tc main_v63_1) = LogSoftmax.logSoftmax (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (row40 (m ((c : Thread nD τ).loc main_arg6))) := by
  refine (W9_arr m ρ c 3).trans ?_
  refine (LogSoftmax.final_logSoftmax (V8 m ρ) c).trans ?_
  show LogSoftmax.logSoftmax (W8 m ρ c (Proc.devRef .tc main_v61)) (W8 m ρ c (Proc.devRef .tc main_v62)) = _
  rw [w8_v61 m ρ c, w8_v62 m ρ c]

end Cert.KernelIdeal.Result

end
-- ==== Proof.RefStages.lean ====
/-
  The reference's run, read stretch by stretch.

  The reference is one straight line of a hundred host operations, cut into thirteen stretches where the kernel's regions
  and host stretches fall.  From any buffer contents each stretch leaves in the buffers it writes the shared stage
  functions of the buffers it reads and leaves every other buffer alone; joined, the run leaves the two results at the
  reference's staged values of the arguments, and the arguments as launched.
-/
import proofs.«164825_j75273596830285_1_alg».proof.Proof.Spec
import Idealize.ShloMosaic.Lib.StableHlo.Run

set_option maxHeartbeats 4000000

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable (W : Valuation τ sig (Elt Ideal))

/-! ## The edge lists, the weights and the degree -/

theorem a_v3 : after opsA W (Proc.devRef .tc main_v3) = val_main_v3 (F := Ideal) (W (Proc.devRef .tc main_arg1)) := by after_results_simp; rfl
theorem a_v6 : after opsA W (Proc.devRef .tc main_v6) = val_main_v6 (F := Ideal) (W (Proc.devRef .tc main_arg1)) := by after_results_simp; rfl
theorem a_v8 : after opsA W (Proc.devRef .tc main_v8) = val_main_v8 (F := Ideal) (W (Proc.devRef .tc main_arg2)) := by after_results_simp; rfl
theorem a_v13 : after opsA W (Proc.devRef .tc main_v13) = val_main_v13 (F := Ideal) (W (Proc.devRef .tc main_arg1)) (W (Proc.devRef .tc main_arg2)) := by after_results_simp; rfl
theorem a_v14 : after opsA W (Proc.devRef .tc main_v14) = val_main_v14 (F := Ideal) (W (Proc.devRef .tc main_arg1)) (W (Proc.devRef .tc main_arg2)) := by after_results_simp; rfl
theorem a_cst_2 : after opsA W (Proc.devRef .tc main_cst_2) = val_main_cst_2 (F := Ideal) := by after_results_simp; rfl
theorem a_keep_arg0 : after opsA W (Proc.devRef .tc main_arg0) = W (Proc.devRef .tc main_arg0) := by after_results_simp
theorem a_keep_arg3 : after opsA W (Proc.devRef .tc main_arg3) = W (Proc.devRef .tc main_arg3) := by after_results_simp
theorem a_keep_arg4 : after opsA W (Proc.devRef .tc main_arg4) = W (Proc.devRef .tc main_arg4) := by after_results_simp
theorem a_keep_arg5 : after opsA W (Proc.devRef .tc main_arg5) = W (Proc.devRef .tc main_arg5) := by after_results_simp
theorem a_keep_arg6 : after opsA W (Proc.devRef .tc main_arg6) = W (Proc.devRef .tc main_arg6) := by after_results_simp

/-! ## The inverse square root of the degree -/

theorem b_v15 : after opsB W (Proc.devRef .tc main_v15) = Cert.Spec.invSqrt (W (Proc.devRef .tc main_v13)) (W (Proc.devRef .tc main_v14)) (W (Proc.devRef .tc main_cst_2)) := by after_results_simp; rfl
theorem b_keep_v3 : after opsB W (Proc.devRef .tc main_v3) = W (Proc.devRef .tc main_v3) := by after_results_simp
theorem b_keep_v6 : after opsB W (Proc.devRef .tc main_v6) = W (Proc.devRef .tc main_v6) := by after_results_simp
theorem b_keep_v8 : after opsB W (Proc.devRef .tc main_v8) = W (Proc.devRef .tc main_v8) := by after_results_simp
theorem b_keep_arg0 : after opsB W (Proc.devRef .tc main_arg0) = W (Proc.devRef .tc main_arg0) := by after_results_simp
theorem b_keep_arg3 : after opsB W (Proc.devRef .tc main_arg3) = W (Proc.devRef .tc main_arg3) := by after_results_simp
theorem b_keep_arg4 : after opsB W (Proc.devRef .tc main_arg4) = W (Proc.devRef .tc main_arg4) := by after_results_simp
theorem b_keep_arg5 : after opsB W (Proc.devRef .tc main_arg5) = W (Proc.devRef .tc main_arg5) := by after_results_simp
theorem b_keep_arg6 : after opsB W (Proc.devRef .tc main_arg6) = W (Proc.devRef .tc main_arg6) := by after_results_simp

/-! ## The per-edge coefficient -/

theorem c_v31 : after opsC W (Proc.devRef .tc main_v31) = Cert.Spec.norm (W (Proc.devRef .tc main_v15)) (W (Proc.devRef .tc main_v3)) (W (Proc.devRef .tc main_v6)) (W (Proc.devRef .tc main_v8)) := by after_results_simp; rfl
theorem c_keep_v3 : after opsC W (Proc.devRef .tc main_v3) = W (Proc.devRef .tc main_v3) := by after_results_simp
theorem c_keep_v6 : after opsC W (Proc.devRef .tc main_v6) = W (Proc.devRef .tc main_v6) := by after_results_simp
theorem c_keep_arg0 : after opsC W (Proc.devRef .tc main_arg0) = W (Proc.devRef .tc main_arg0) := by after_results_simp
theorem c_keep_arg3 : after opsC W (Proc.devRef .tc main_arg3) = W (Proc.devRef .tc main_arg3) := by after_results_simp
theorem c_keep_arg4 : after opsC W (Proc.devRef .tc main_arg4) = W (Proc.devRef .tc main_arg4) := by after_results_simp
theorem c_keep_arg5 : after opsC W (Proc.devRef .tc main_arg5) = W (Proc.devRef .tc main_arg5) := by after_results_simp
theorem c_keep_arg6 : after opsC W (Proc.devRef .tc main_arg6) = W (Proc.devRef .tc main_arg6) := by after_results_simp

/-! ## The first dense product -/

theorem d_v32 : after opsD W (Proc.devRef .tc main_v32) = val_main_v32 (F := Ideal) (W (Proc.devRef .tc main_arg0)) (W (Proc.devRef .tc main_arg3)) := by after_results_simp; rfl
theorem d_keep_v3 : after opsD W (Proc.devRef .tc main_v3) = W (Proc.devRef .tc main_v3) := by after_results_simp
theorem d_keep_v6 : after opsD W (Proc.devRef .tc main_v6) = W (Proc.devRef .tc main_v6) := by after_results_simp
theorem d_keep_v31 : after opsD W (Proc.devRef .tc main_v31) = W (Proc.devRef .tc main_v31) := by after_results_simp
theorem d_keep_arg4 : after opsD W (Proc.devRef .tc main_arg4) = W (Proc.devRef .tc main_arg4) := by after_results_simp
theorem d_keep_arg5 : after opsD W (Proc.devRef .tc main_arg5) = W (Proc.devRef .tc main_arg5) := by after_results_simp
theorem d_keep_arg6 : after opsD W (Proc.devRef .tc main_arg6) = W (Proc.devRef .tc main_arg6) := by after_results_simp

/-! ## The first aggregation -/

theorem e_v45 : after opsE W (Proc.devRef .tc main_v45) = Cert.Spec.agg64 (W (Proc.devRef .tc main_v32)) (W (Proc.devRef .tc main_v3)) (W (Proc.devRef .tc main_v6)) (W (Proc.devRef .tc main_v31)) := by after_results_simp; rfl
theorem e_keep_v3 : after opsE W (Proc.devRef .tc main_v3) = W (Proc.devRef .tc main_v3) := by after_results_simp
theorem e_keep_v6 : after opsE W (Proc.devRef .tc main_v6) = W (Proc.devRef .tc main_v6) := by after_results_simp
theorem e_keep_v31 : after opsE W (Proc.devRef .tc main_v31) = W (Proc.devRef .tc main_v31) := by after_results_simp
theorem e_keep_arg4 : after opsE W (Proc.devRef .tc main_arg4) = W (Proc.devRef .tc main_arg4) := by after_results_simp
theorem e_keep_arg5 : after opsE W (Proc.devRef .tc main_arg5) = W (Proc.devRef .tc main_arg5) := by after_results_simp
theorem e_keep_arg6 : after opsE W (Proc.devRef .tc main_arg6) = W (Proc.devRef .tc main_arg6) := by after_results_simp

/-! ## The first bias and the relu -/

theorem f_v49 : after opsF W (Proc.devRef .tc main_v49) = Cert.Spec.hiddenLayer (W (Proc.devRef .tc main_v45)) (W (Proc.devRef .tc main_arg4)) := by after_results_simp; rfl
theorem f_keep_v3 : after opsF W (Proc.devRef .tc main_v3) = W (Proc.devRef .tc main_v3) := by after_results_simp
theorem f_keep_v6 : after opsF W (Proc.devRef .tc main_v6) = W (Proc.devRef .tc main_v6) := by after_results_simp
theorem f_keep_v31 : after opsF W (Proc.devRef .tc main_v31) = W (Proc.devRef .tc main_v31) := by after_results_simp
theorem f_keep_arg5 : after opsF W (Proc.devRef .tc main_arg5) = W (Proc.devRef .tc main_arg5) := by after_results_simp
theorem f_keep_arg6 : after opsF W (Proc.devRef .tc main_arg6) = W (Proc.devRef .tc main_arg6) := by after_results_simp

/-! ## The second dense product -/

theorem g_v50 : after opsG W (Proc.devRef .tc main_v50) = Cert.Spec.dense2 (W (Proc.devRef .tc main_v49)) (W (Proc.devRef .tc main_arg5)) := by after_results_simp; rfl
theorem g_keep_v3 : after opsG W (Proc.devRef .tc main_v3) = W (Proc.devRef .tc main_v3) := by after_results_simp
theorem g_keep_v6 : after opsG W (Proc.devRef .tc main_v6) = W (Proc.devRef .tc main_v6) := by after_results_simp
theorem g_keep_v31 : after opsG W (Proc.devRef .tc main_v31) = W (Proc.devRef .tc main_v31) := by after_results_simp
theorem g_keep_arg6 : after opsG W (Proc.devRef .tc main_arg6) = W (Proc.devRef .tc main_arg6) := by after_results_simp

/-! ## The second aggregation -/

theorem h_v63 : after opsH W (Proc.devRef .tc main_v63) = Cert.Spec.agg40 (W (Proc.devRef .tc main_v50)) (W (Proc.devRef .tc main_v3)) (W (Proc.devRef .tc main_v6)) (W (Proc.devRef .tc main_v31)) := by after_results_simp; rfl
theorem h_keep_arg6 : after opsH W (Proc.devRef .tc main_arg6) = W (Proc.devRef .tc main_arg6) := by after_results_simp

/-! ## The second bias -/

theorem i_v66 : after opsI W (Proc.devRef .tc main_v66) = Cert.Spec.finalAdd (W (Proc.devRef .tc main_v63)) (W (Proc.devRef .tc main_arg6)) := by after_results_simp; rfl

/-! ## The log-softmax, in four parts -/

/-- Each row's maximum from −∞, as the host reduces it. -/
def rowMax (f : Cert.Spec.F32 S100000x40) : Cert.Spec.F32 S100000 :=
  Host.reduce FloatOps.maximumf f (constant (F := Ideal) S_ .f32 0xFF800000#32) reducesTo_S100000x40_S100000_d1 h_S_

theorem j1a_v0 : after ((opsJ1 (F := Ideal)).take 2) W (Proc.devRef .tc main_call2_v0) = rowMax (W (Proc.devRef .tc main_v66)) := by
  simp only [opsJ1, List.take_succ_cons, List.take_zero]
  after_results_simp
  unfold rowMax
  congr 1
theorem j1b_v2 : after ((opsJ1 (F := Ideal)).drop 2) W (Proc.devRef .tc main_call2_v2)
    = maximumf (broadcastInDim S100000 ![] bcast_S_S100000 (constant (F := Ideal) S_ .f32 0xFF800000#32)) (W (Proc.devRef .tc main_call2_v0)) := by
  simp only [opsJ1, List.drop_succ_cons, List.drop_zero]
  after_results_simp; rfl
theorem j1_v2 : after opsJ1 W (Proc.devRef .tc main_call2_v2)
    = maximumf (broadcastInDim S100000 ![] bcast_S_S100000 (constant (F := Ideal) S_ .f32 0xFF800000#32))
        (Host.reduce FloatOps.maximumf (W (Proc.devRef .tc main_v66)) (constant (F := Ideal) S_ .f32 0xFF800000#32) reducesTo_S100000x40_S100000_d1 h_S_) := by
  rw [← List.take_append_drop 2 (opsJ1 (F := Ideal)), after_append, j1b_v2, j1a_v0]
  rfl
theorem j1_keep_v66 : after opsJ1 W (Proc.devRef .tc main_v66) = W (Proc.devRef .tc main_v66) := by after_results_simp

theorem j2_v5 : after opsJ2 W (Proc.devRef .tc main_call2_v5)
    = subf (W (Proc.devRef .tc main_v66)) (Cert.Spec.alongLanes (Cert.Spec.asColumn (W (Proc.devRef .tc main_call2_v2)))) := by
  after_results_simp; rfl
theorem j2_keep_v66 : after opsJ2 W (Proc.devRef .tc main_v66) = W (Proc.devRef .tc main_v66) := by after_results_simp

theorem j3_v7 : after opsJ3 W (Proc.devRef .tc main_call2_v7)
    = Host.reduceAdd (Host.exp (W (Proc.devRef .tc main_call2_v5))) (constant (F := Ideal) S_ .f32 0x00000000#32) reducesTo_S100000x40_S100000_d1 h_S_ := by
  after_results_simp; rfl
theorem j3_keep_v5 : after opsJ3 W (Proc.devRef .tc main_call2_v5) = W (Proc.devRef .tc main_call2_v5) := by after_results_simp
theorem j3_keep_v66 : after opsJ3 W (Proc.devRef .tc main_v66) = W (Proc.devRef .tc main_v66) := by after_results_simp

theorem j4_v67 : after opsJ4 W (Proc.devRef .tc main_v67)
    = subf (W (Proc.devRef .tc main_call2_v5)) (Cert.Spec.alongLanes (Host.log (Cert.Spec.asColumn (W (Proc.devRef .tc main_call2_v7))))) := by
  after_results_simp; rfl
theorem j4_keep_v66 : after opsJ4 W (Proc.devRef .tc main_v66) = W (Proc.devRef .tc main_v66) := by after_results_simp

end Cert.ReferenceIdeal.Stages

end
-- ==== Proof.RefValue.lean ====
/-
  The reference's two results as functions of its arguments.

  The thirteen stretches joined: the run leaves the first result at the reference's staged value of the second biased
  aggregation, the second at its log-softmax, and every argument as launched.
-/
import proofs.«164825_j75273596830285_1_alg».proof.Proof.RefStages

set_option maxHeartbeats 4000000

noncomputable section

namespace Cert.ReferenceIdeal.Result

open Cert.ReferenceIdeal Cert.ReferenceIdeal.Gen Cert.ReferenceIdeal.Value Cert.ReferenceIdeal.Read Cert.ReferenceIdeal.Stages Cert.Spec
open Idealize.ShloMosaic Idealize.ShloMosaic.TcCoe Idealize.SL.Sem Idealize.ShloMosaic.StableHlo

variable (W : Valuation τ sig (Elt Ideal))

/-- The whole line is the ten stretches one after the other. -/
theorem after_ops : after (ops (F := Ideal)) W = (after opsJ4 (after opsJ3 (after opsJ2 (after opsJ1 (after opsI (after opsH (after opsG (after opsF (after opsE (after opsD (after opsC (after opsB (after opsA W))))))))))))) := by
  rw [ops_split]
  simp only [after_append]

/-! ## Stretch by stretch -/

theorem wc_v31 : (after opsC (after opsB (after opsA W))) (Proc.devRef .tc main_v31) = (val_main_v31 (F := Ideal) (W (Proc.devRef .tc main_arg1)) (W (Proc.devRef .tc main_arg2))) := by
  rw [c_v31, b_v15, b_keep_v3, b_keep_v6, b_keep_v8, a_v13, a_v14, a_cst_2, a_v3, a_v6, a_v8]
  exact (v31_eq _ _).symm
theorem wc_v3 : (after opsC (after opsB (after opsA W))) (Proc.devRef .tc main_v3) = (val_main_v3 (F := Ideal) (W (Proc.devRef .tc main_arg1))) := by rw [c_keep_v3, b_keep_v3, a_v3]
theorem wc_v6 : (after opsC (after opsB (after opsA W))) (Proc.devRef .tc main_v6) = (val_main_v6 (F := Ideal) (W (Proc.devRef .tc main_arg1))) := by rw [c_keep_v6, b_keep_v6, a_v6]
theorem wc_arg0 : (after opsC (after opsB (after opsA W))) (Proc.devRef .tc main_arg0) = (W (Proc.devRef .tc main_arg0)) := by rw [c_keep_arg0, b_keep_arg0, a_keep_arg0]
theorem wc_arg3 : (after opsC (after opsB (after opsA W))) (Proc.devRef .tc main_arg3) = (W (Proc.devRef .tc main_arg3)) := by rw [c_keep_arg3, b_keep_arg3, a_keep_arg3]
theorem wc_arg4 : (after opsC (after opsB (after opsA W))) (Proc.devRef .tc main_arg4) = (W (Proc.devRef .tc main_arg4)) := by rw [c_keep_arg4, b_keep_arg4, a_keep_arg4]
theorem wc_arg5 : (after opsC (after opsB (after opsA W))) (Proc.devRef .tc main_arg5) = (W (Proc.devRef .tc main_arg5)) := by rw [c_keep_arg5, b_keep_arg5, a_keep_arg5]
theorem wc_arg6 : (after opsC (after opsB (after opsA W))) (Proc.devRef .tc main_arg6) = (W (Proc.devRef .tc main_arg6)) := by rw [c_keep_arg6, b_keep_arg6, a_keep_arg6]

theorem we_v45 : (after opsE (after opsD (after opsC (after opsB (after opsA W))))) (Proc.devRef .tc main_v45) = val_main_v45 (F := Ideal) (W (Proc.devRef .tc main_arg0)) (W (Proc.devRef .tc main_arg1)) (W (Proc.devRef .tc main_arg2)) (W (Proc.devRef .tc main_arg3)) := by
  rw [e_v45, d_v32, d_keep_v3, d_keep_v6, d_keep_v31, wc_arg0, wc_arg3, wc_v3, wc_v6, wc_v31]
  exact (v45_eq _ _ _ _).symm
theorem we_v3 : (after opsE (after opsD (after opsC (after opsB (after opsA W))))) (Proc.devRef .tc main_v3) = (val_main_v3 (F := Ideal) (W (Proc.devRef .tc main_arg1))) := by rw [e_keep_v3, d_keep_v3, wc_v3]
theorem we_v6 : (after opsE (after opsD (after opsC (after opsB (after opsA W))))) (Proc.devRef .tc main_v6) = (val_main_v6 (F := Ideal) (W (Proc.devRef .tc main_arg1))) := by rw [e_keep_v6, d_keep_v6, wc_v6]
theorem we_v31 : (after opsE (after opsD (after opsC (after opsB (after opsA W))))) (Proc.devRef .tc main_v31) = (val_main_v31 (F := Ideal) (W (Proc.devRef .tc main_arg1)) (W (Proc.devRef .tc main_arg2))) := by rw [e_keep_v31, d_keep_v31, wc_v31]
theorem we_arg4 : (after opsE (after opsD (after opsC (after opsB (after opsA W))))) (Proc.devRef .tc main_arg4) = (W (Proc.devRef .tc main_arg4)) := by rw [e_keep_arg4, d_keep_arg4, wc_arg4]
theorem we_arg5 : (after opsE (after opsD (after opsC (after opsB (after opsA W))))) (Proc.devRef .tc main_arg5) = (W (Proc.devRef .tc main_arg5)) := by rw [e_keep_arg5, d_keep_arg5, wc_arg5]
theorem we_arg6 : (after opsE (after opsD (after opsC (after opsB (after opsA W))))) (Proc.devRef .tc main_arg6) = (W (Proc.devRef .tc main_arg6)) := by rw [e_keep_arg6, d_keep_arg6, wc_arg6]

theorem wg_v50 : (after opsG (after opsF (after opsE (after opsD (after opsC (after opsB (after opsA W))))))) (Proc.devRef .tc main_v50) = val_main_v50 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [g_v50, f_v49, f_keep_arg5, we_v45, we_arg4, we_arg5]
  exact ((v50_eq _ _ _ _ _ _).trans (congrArg (fun h => dense2 h _) (v49_eq _ _ _ _ _))).symm
theorem wg_v3 : (after opsG (after opsF (after opsE (after opsD (after opsC (after opsB (after opsA W))))))) (Proc.devRef .tc main_v3) = (val_main_v3 (F := Ideal) (W (Proc.devRef .tc main_arg1))) := by rw [g_keep_v3, f_keep_v3, we_v3]
theorem wg_v6 : (after opsG (after opsF (after opsE (after opsD (after opsC (after opsB (after opsA W))))))) (Proc.devRef .tc main_v6) = (val_main_v6 (F := Ideal) (W (Proc.devRef .tc main_arg1))) := by rw [g_keep_v6, f_keep_v6, we_v6]
theorem wg_v31 : (after opsG (after opsF (after opsE (after opsD (after opsC (after opsB (after opsA W))))))) (Proc.devRef .tc main_v31) = (val_main_v31 (F := Ideal) (W (Proc.devRef .tc main_arg1)) (W (Proc.devRef .tc main_arg2))) := by rw [g_keep_v31, f_keep_v31, we_v31]
theorem wg_arg6 : (after opsG (after opsF (after opsE (after opsD (after opsC (after opsB (after opsA W))))))) (Proc.devRef .tc main_arg6) = (W (Proc.devRef .tc main_arg6)) := by rw [g_keep_arg6, f_keep_arg6, we_arg6]

theorem wi_v66 : (after opsI (after opsH (after opsG (after opsF (after opsE (after opsD (after opsC (after opsB (after opsA W))))))))) (Proc.devRef .tc main_v66) = val_main_v66 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [i_v66, h_v63, h_keep_arg6, wg_v50, wg_v3, wg_v6, wg_v31, wg_arg6]
  exact ((v66_eq _ _ _ _ _ _ _).trans (congrArg (fun a => finalAdd a _) (v63_eq _ _ _ _ _ _))).symm

/-! ## The two results and the arguments after the whole line -/

theorem out0 : after (ops (F := Ideal)) W (Proc.devRef .tc main_v66) = val_main_v66 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [after_ops, j4_keep_v66, j3_keep_v66, j2_keep_v66, j1_keep_v66, wi_v66]

theorem out1 : after (ops (F := Ideal)) W (Proc.devRef .tc main_v67) = val_main_v67 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [after_ops, j4_v67, j3_v7, j3_keep_v5, j2_v5, j1_v2, j1_keep_v66, wi_v66]
  exact (v67_eq _ _ _ _ _ _ _).symm
theorem kept_arg0 : after (ops (F := Ideal)) W (Proc.devRef .tc main_arg0) = (W (Proc.devRef .tc main_arg0)) := by after_results_simp
theorem kept_arg1 : after (ops (F := Ideal)) W (Proc.devRef .tc main_arg1) = (W (Proc.devRef .tc main_arg1)) := by after_results_simp
theorem kept_arg2 : after (ops (F := Ideal)) W (Proc.devRef .tc main_arg2) = (W (Proc.devRef .tc main_arg2)) := by after_results_simp
theorem kept_arg3 : after (ops (F := Ideal)) W (Proc.devRef .tc main_arg3) = (W (Proc.devRef .tc main_arg3)) := by after_results_simp
theorem kept_arg4 : after (ops (F := Ideal)) W (Proc.devRef .tc main_arg4) = (W (Proc.devRef .tc main_arg4)) := by after_results_simp
theorem kept_arg5 : after (ops (F := Ideal)) W (Proc.devRef .tc main_arg5) = (W (Proc.devRef .tc main_arg5)) := by after_results_simp
theorem kept_arg6 : after (ops (F := Ideal)) W (Proc.devRef .tc main_arg6) = (W (Proc.devRef .tc main_arg6)) := by after_results_simp

end Cert.ReferenceIdeal.Result

end
-- ==== Proof.Bridge.lean ====
/-
  The kernel's four regions against the reference's dense steps.

  Between the shared gather / scale / scatter-add stretches the reference has one host operation, or a few, where
  the kernel has a tiled region.  Index by index at the extended reals they are the same functions:
  a dot product is the sum over the contraction index on both sides (the same products in the same order);
  the bias add reads the bias at the lane on both sides (a [1, n] row cast from the vector, or the vector broadcast);
  relu is the maximum with zero on both sides; and the row-wise log-softmax is, on both sides, the row minus its
  maximum M (a fold of max from −∞; jax also takes max (−∞, M), which is M) minus the logarithm of the sum of the
  exponentials of the shifted row (from zero, which adds nothing).  No law beyond  max (−∞, M) = M  and  0 + s = s
  is used, so nothing depends on the inputs being finite.
-/
import proofs.«164825_j75273596830285_1_alg».proof.Proof.Spec
import proofs.«164825_j75273596830285_1_alg».proof.Proof.Region0
import proofs.«164825_j75273596830285_1_alg».proof.Proof.Region1
import proofs.«164825_j75273596830285_1_alg».proof.Proof.Region2
import proofs.«164825_j75273596830285_1_alg».proof.Proof.Region3
import Idealize.ShloMosaic.PureOps.Ideal.Laws
import Idealize.ShloMosaic.Lib.ValueIdx
import Idealize.ShloMosaic.Lib.Pipeline.Value

noncomputable section

namespace Cert.Bridge

open Cert.ReferenceIdeal Cert.ReferenceIdeal.Gen Cert.ReferenceIdeal.Read Cert.Spec
open Idealize.ShloMosaic Idealize.ShloMosaic.TcCoe Idealize.ShloMosaic.ValueIdx

/-! ## The two dense products -/

/-- The host's dot product of the features with the first weight matrix is the kernel's whole-array product: both are, at (r, q), the sum over the
    256 contraction indices of left (r, k) · right (k, q). -/
theorem dense1_eq (x : F32 S100000x256) (w : F32 S256x64) :
    Host.dotGeneral dot_S100000x256_S256x64_S100000x64_1_0_0_1_n_n none x w = Cert.KernelIdeal.MatmulA.product x w := by
  funext i
  simp only [Host.dotGeneral]
  rw [Ideal.dotGeneral_apply, ← Equiv.sum_comp (ValueIdx.contrEquiv1 dot_S100000x256_S256x64_S100000x64_1_0_0_1_n_n 256 rfl rfl).symm]
  unfold Cert.KernelIdeal.MatmulA.product
  refine Finset.sum_congr rfl fun k _ => ?_
  have hk := ValueIdx.contrEquiv1_symm_val dot_S100000x256_S256x64_S100000x64_1_0_0_1_n_n 256 rfl rfl k
  have el : dot_S100000x256_S256x64_S100000x64_1_0_0_1_n_n.lhsIdx i ((ValueIdx.contrEquiv1 dot_S100000x256_S256x64_S100000x64_1_0_0_1_n_n 256 rfl rfl).symm k)
      = ix2 (⟨(i 0).val, (i 0).isLt⟩ : Fin 100000) k := funext fun a => Fin.ext (by
    match a with
    | ⟨0, _⟩ => exact lhs_main_v32_0 _ _
    | ⟨1, _⟩ => exact (lhs_main_v32_1 _ _).trans hk)
  have er : dot_S100000x256_S256x64_S100000x64_1_0_0_1_n_n.rhsIdx i ((ValueIdx.contrEquiv1 dot_S100000x256_S256x64_S100000x64_1_0_0_1_n_n 256 rfl rfl).symm k)
      = ix2 k (⟨(i 1).val, (i 1).isLt⟩ : Fin 64) := funext fun a => Fin.ext (by
    match a with
    | ⟨0, _⟩ => exact (rhs_main_v32_0 _ _).trans hk
    | ⟨1, _⟩ => exact rhs_main_v32_1 _ _)
  rw [el, er]

/-- The host's dot product of the hidden layer with the second weight matrix is the kernel's whole-array product: both are, at (r, q), the sum over the
    64 contraction indices of left (r, k) · right (k, q). -/
theorem dense2_eq (x : F32 S100000x64) (w : F32 S64x40) :
    Host.dotGeneral dot_S100000x64_S64x40_S100000x40_1_0_0_1_n_n none x w = Cert.KernelIdeal.MatmulB.product x w := by
  funext i
  simp only [Host.dotGeneral]
  rw [Ideal.dotGeneral_apply, ← Equiv.sum_comp (ValueIdx.contrEquiv1 dot_S100000x64_S64x40_S100000x40_1_0_0_1_n_n 64 rfl rfl).symm]
  unfold Cert.KernelIdeal.MatmulB.product
  refine Finset.sum_congr rfl fun k _ => ?_
  have hk := ValueIdx.contrEquiv1_symm_val dot_S100000x64_S64x40_S100000x40_1_0_0_1_n_n 64 rfl rfl k
  have el : dot_S100000x64_S64x40_S100000x40_1_0_0_1_n_n.lhsIdx i ((ValueIdx.contrEquiv1 dot_S100000x64_S64x40_S100000x40_1_0_0_1_n_n 64 rfl rfl).symm k)
      = ix2 (⟨(i 0).val, (i 0).isLt⟩ : Fin 100000) k := funext fun a => Fin.ext (by
    match a with
    | ⟨0, _⟩ => exact lhs_main_v50_0 _ _
    | ⟨1, _⟩ => exact (lhs_main_v50_1 _ _).trans hk)
  have er : dot_S100000x64_S64x40_S100000x40_1_0_0_1_n_n.rhsIdx i ((ValueIdx.contrEquiv1 dot_S100000x64_S64x40_S100000x40_1_0_0_1_n_n 64 rfl rfl).symm k)
      = ix2 k (⟨(i 1).val, (i 1).isLt⟩ : Fin 40) := funext fun a => Fin.ext (by
    match a with
    | ⟨0, _⟩ => exact (rhs_main_v50_0 _ _).trans hk
    | ⟨1, _⟩ => exact rhs_main_v50_1 _ _)
  rw [el, er]

/-! ## The bias rows -/

/-- The bias vector cast to a one-row matrix, read at (0, q), is its entry q. -/
theorem row64_at (b : F32 S64) (q : Fin 64) : row64 b (ix2 (0 : Fin 1) q) = b (ix1 q) :=
  shapeCast_apply b _ (ix2 (0 : Fin 1) q) (ix1 q) (by
    rw [Shape.rowMajor_val_one, Shape.rowMajor_val_two]; show q.val = 0 * 64 + q.val; omega)

theorem row40_at (b : F32 S40) (q : Fin 40) : row40 b (ix2 (0 : Fin 1) q) = b (ix1 q) :=
  shapeCast_apply b _ (ix2 (0 : Fin 1) q) (ix1 q) (by
    rw [Shape.rowMajor_val_one, Shape.rowMajor_val_two]; show q.val = 0 * 40 + q.val; omega)

/-- The bias vector broadcast over the rows, read at (r, q), is its entry q. -/
theorem bias64_at (b : F32 S64) (i : S100000x64.Idx) :
    val_main_v47 (F := Ideal) b i = b (ix1 (⟨(i 1).val, (i 1).isLt⟩ : Fin 64)) := by
  rw [val_main_v47_apply, val_main_v46_apply]
  exact congrArg b (funext fun a => by match a with | ⟨0, _⟩ => rfl)

theorem bias40_at (b : F32 S40) (i : S100000x40.Idx) :
    val_main_v65 (F := Ideal) b i = b (ix1 (⟨(i 1).val, (i 1).isLt⟩ : Fin 40)) := by
  rw [val_main_v65_apply, val_main_v64_apply]
  exact congrArg b (funext fun a => by match a with | ⟨0, _⟩ => rfl)

/-! ## The bias add and the relu -/

/-- The reference's hidden layer is the kernel's bias-and-relu function of the aggregation and the bias row. -/
theorem hiddenLayer_eq (a : F32 S100000x64) (b : F32 S64) :
    hiddenLayer a b = Cert.KernelIdeal.BiasRelu.biasRelu a (row64 b) := by
  funext i
  unfold hiddenLayer Cert.KernelIdeal.BiasRelu.biasRelu
  rw [maximumf_apply, addf_apply, bias64_at, row64_at, val_main_call1_v0_apply]
  rfl

/-- The reference's first result is the kernel's bias function of the aggregation and the bias row. -/
theorem finalAdd_eq (a : F32 S100000x40) (b : F32 S40) :
    finalAdd a b = Cert.KernelIdeal.LogSoftmax.biased a (row40 b) := by
  funext i
  unfold finalAdd Cert.KernelIdeal.LogSoftmax.biased
  rw [addf_apply, bias40_at, row40_at]

/-! ## The log-softmax -/

/-- The pattern of −∞ is the bottom of the extended reals, so the maximum with it changes nothing. -/
theorem max_negInf (y : EReal) : max (Ideal.ofBits .f32 0xFF800000#32) y = y := by
  simp [Ideal.ofBits, Ideal.ieee]

theorem hRed : S100000x40.Reduces [1] S100000 := by decide

/-- The reduced index r with lane k put back is (r, k). -/
theorem lift_row (r : Fin 100000) (k : Fin (S100000x40.size 1)) :
    hRed.lift (ix1 r) k = ix2 r (⟨k.val, k.isLt⟩ : Fin 40) := by
  funext a; apply Fin.ext
  fin_cases a <;> rfl

/-- A column of row values spread along the forty lanes, read at (r, q), is the column's entry r. -/
theorem alongLanes_at (u : F32 S100000x1) (i : S100000x40.Idx) :
    alongLanes u i = u (ix2 (⟨(i 0).val, (i 0).isLt⟩ : Fin 100000) (0 : Fin 1)) :=
  broadcastInDim_apply _ bcast_S100000x1_S100000x40_0_1 u i (ix2 (⟨(i 0).val, (i 0).isLt⟩ : Fin 100000) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A vector of row values as a column, read at (r, 0), is its entry r. -/
theorem asColumn_at (u : F32 S100000) (r : Fin 100000) : asColumn u (ix2 r (0 : Fin 1)) = u (ix1 r) :=
  broadcastInDim_apply _ bcast_S100000_S100000x1_0 u (ix2 r (0 : Fin 1)) (ix1 r) (fun a => match a with
    | ⟨0, _⟩ => by show r.val = if (100000 : Nat) = 1 then 0 else r.val; rw [if_neg (by decide)])

/-- The maximum jax subtracts from row r: the fold of max over the row from −∞. -/
theorem rowMax_at (f : F32 S100000x40) (r : Fin 100000) :
    maximumf (broadcastInDim S100000 ![] bcast_S_S100000 (constant (F := Ideal) S_ .f32 0xFF800000#32))
        (Host.reduce FloatOps.maximumf f (constant (F := Ideal) S_ .f32 0xFF800000#32) reducesTo_S100000x40_S100000_d1 h_S_) (ix1 r)
      = (Finset.univ : Finset (Fin 40)).fold max (Ideal.ofBits .f32 0xFF800000#32) (fun k => f (ix2 r k)) := by
  rw [maximumf_apply, Host.reduce_eq_fold_single FloatOps.maximumf f _ reducesTo_S100000x40_S100000_d1 hRed h_S_ (ix1 r)]
  refine (max_negInf _).trans ?_
  exact congrArg (fun g => Finset.fold max (Ideal.ofBits .f32 0xFF800000#32) g (Finset.univ : Finset (Fin 40)))
    (funext fun k => congrArg f (lift_row r k))

/-- The shifted row at (r, q). -/
theorem shifted_at (f : F32 S100000x40) (r : Fin 100000) (q : Fin 40) :
    shifted f (ix2 r q) = f (ix2 r q) - (Finset.univ : Finset (Fin 40)).fold max (Ideal.ofBits .f32 0xFF800000#32) (fun k => f (ix2 r k)) := by
  unfold shifted
  rw [subf_apply, alongLanes_at, asColumn_at]
  exact congrArg (fun z => f (ix2 r q) - z) (rowMax_at f r)

/-- The sum of the exponentials of the shifted row r (from zero). -/
theorem rowSum_at (g : F32 S100000x40) (r : Fin 100000) :
    Host.reduceAdd g (constant (F := Ideal) S_ .f32 0x00000000#32) reducesTo_S100000x40_S100000_d1 h_S_ (ix1 r)
      = ∑ k : Fin 40, g (ix2 r k) := by
  unfold Host.reduceAdd
  rw [Ideal.hostReduceAdd_def, Ideal.hostReduceAdd_single reducesTo_S100000x40_S100000_d1 hRed g _ (ix1 r)]
  refine (congrArg (· + _) Ideal.ofBits_zero_f32).trans ?_
  rw [zero_add]
  exact Finset.sum_congr rfl fun k _ => congrArg g (lift_row r k)

/-- The logarithm of a vector of row values, as a column spread along the lanes, read at (r, q). -/
theorem logColumn_at (u : F32 S100000) (i : S100000x40.Idx) :
    alongLanes (Host.log (asColumn u)) i = Ideal.log (u (ix1 (⟨(i 0).val, (i 0).isLt⟩ : Fin 100000))) := by
  rw [alongLanes_at]
  exact congrArg Ideal.log (asColumn_at u _)

/-- jax's log-softmax is, row by row, the kernel's. -/
theorem lsm_at (f : F32 S100000x40) (i : S100000x40.Idx) :
    lsm f i = Cert.KernelIdeal.LogSoftmax.rowLogSoftmax (fun k => f (ix2 (⟨(i 0).val, (i 0).isLt⟩ : Fin 100000) k)) (⟨(i 1).val, (i 1).isLt⟩ : Fin 40) := by
  obtain ⟨r, q, rfl⟩ : ∃ (r : Fin 100000) (q : Fin 40), i = ix2 r q := ⟨i 0, i 1, eq_ix2 i⟩
  unfold lsm Cert.KernelIdeal.LogSoftmax.rowLogSoftmax
  rw [subf_apply, shifted_at, logColumn_at, rowSum_at]
  exact congrArg (fun s => (f (ix2 r q) - (Finset.univ : Finset (Fin 40)).fold max (Ideal.ofBits .f32 0xFF800000#32) (fun k => f (ix2 r k))) - Ideal.log s)
    (Finset.sum_congr rfl fun k _ => by
      show Ideal.exp (shifted f (ix2 r k)) = _
      rw [shifted_at])

/-- The reference's second result is the kernel's log-softmax function of the aggregation and the bias row. -/
theorem lsm_eq (a : F32 S100000x40) (b : F32 S40) :
    lsm (finalAdd a b) = Cert.KernelIdeal.LogSoftmax.logSoftmax a (row40 b) := by
  funext i
  rw [lsm_at, finalAdd_eq]
  rfl

end Cert.Bridge

end
-- ==== Proof.Equal.lean ====
/-
  The two programs compute the same two arrays.

  Unfolding the reference's staged values from the results back to the arguments, each dense step is replaced by
  the kernel's whole-array function of the same operands (the two products, the bias-and-relu, the final bias and
  the log-softmax), and what is left on both sides is the same composition of the shared aggregation stages.
-/
import proofs.«164825_j75273596830285_1_alg».proof.Proof.Bridge
import proofs.«164825_j75273596830285_1_alg».proof.Proof.KernelValue

noncomputable section

namespace Cert.Equal

open Cert.ReferenceIdeal Cert.ReferenceIdeal.Gen Cert.ReferenceIdeal.Read Cert.Spec Cert.Bridge
open Cert.KernelIdeal.Result (layer1 layer2)
open Idealize.ShloMosaic Idealize.ShloMosaic.TcCoe

/-- The reference's first aggregation is the kernel's. -/
theorem ref_layer1 (x0 : F32 S100000x256) (x1 : I32 S2x1600000) (x2 : F32 S1600000) (x3 : F32 S256x64) :
    val_main_v45 (F := Ideal) x0 x1 x2 x3 = layer1 x0 x1 x2 x3 := by
  have h : val_main_v32 (F := Ideal) x0 x3 = Cert.KernelIdeal.MatmulA.product x0 x3 := dense1_eq x0 x3
  rw [v45_eq, h]
  rfl

/-- The reference's second aggregation is the kernel's. -/
theorem ref_layer2 (x0 : F32 S100000x256) (x1 : I32 S2x1600000) (x2 : F32 S1600000) (x3 : F32 S256x64) (x4 : F32 S64) (x5 : F32 S64x40) :
    val_main_v63 (F := Ideal) x0 x1 x2 x3 x4 x5 = layer2 x0 x1 x2 x3 x4 x5 := by
  have h : ∀ (a : F32 S100000x64) (w : F32 S64x40), dense2 a w = Cert.KernelIdeal.MatmulB.product a w := dense2_eq
  rw [v63_eq, v50_eq, h, v49_eq, hiddenLayer_eq, ref_layer1]
  rfl

/-- The reference's first result is the kernel's. -/
theorem ref_out0 (x0 : F32 S100000x256) (x1 : I32 S2x1600000) (x2 : F32 S1600000) (x3 : F32 S256x64) (x4 : F32 S64) (x5 : F32 S64x40) (x6 : F32 S40) :
    val_main_v66 (F := Ideal) x0 x1 x2 x3 x4 x5 x6 = Cert.KernelIdeal.LogSoftmax.biased (layer2 x0 x1 x2 x3 x4 x5) (row40 x6) := by
  rw [v66_eq, finalAdd_eq, ref_layer2]

/-- The reference's second result is the kernel's. -/
theorem ref_out1 (x0 : F32 S100000x256) (x1 : I32 S2x1600000) (x2 : F32 S1600000) (x3 : F32 S256x64) (x4 : F32 S64) (x5 : F32 S64x40) (x6 : F32 S40) :
    val_main_v67 (F := Ideal) x0 x1 x2 x3 x4 x5 x6 = Cert.KernelIdeal.LogSoftmax.logSoftmax (layer2 x0 x1 x2 x3 x4 x5) (row40 x6) := by
  rw [v67_eq, v66_eq, lsm_eq, ref_layer2]

end Cert.Equal

end
-- ==== Proof.lean ====
/-
  A two-layer graph convolution with a log-softmax head: the kernel against its jnp reference.

  Both programs take node features x [100000, 256], an edge list [2, 1600000] with edge weights, and the weights and
  biases of two layers, and return  out = Â · (relu (Â · (x W₁) + b₁) W₂) + b₂  and the row-wise log-softmax of out,
  where Â is the symmetrically normalised adjacency with unit self-loops.  The normalisation, the gather of source
  rows, the scaling by the per-edge coefficient and the scatter-add at the target nodes are the same host operations
  in both programs.  The kernel does the four dense steps in tiled regions: x W₁ and h W₂ as matmuls over blocks of
  5000 rows, the bias-and-relu and the bias-and-log-softmax over blocks of 10000 rows; the reference does each with
  one host operation (or, for the log-softmax, jax's outlined fifteen).

  At the extended reals each region leaves one whole-array function of the arrays it reads: every entry of an output
  block depends only on the matching row of the input block, the blocks tile the array, and block t of the function is
  what grid point t writes back (Region0 … Region3).  Walking the program's segments gives each result as the
  composition of these functions with the shared aggregation stages (KernelHost, KernelValue); walking the reference's
  hundred operations in matching stretches gives the same stages around its own dense steps (RefStages, RefValue); and
  index by index the dense steps agree (Bridge): a product is the same sum over the contraction index, the bias is
  read at the lane, relu is the maximum with zero, and the log-softmax is the row minus its maximum minus the logarithm
  of the sum of the exponentials of the shifted row, where jax's extra  max (−∞, ·)  and its sum's starting zero change
  nothing.  No step uses that the inputs are finite.  The idealization rewrote nothing, so it preserves the kernel as
  printed; the three frames are the programs' runs with the results forgotten.
-/
import proofs.«164825_j75273596830285_1_alg».proof.Defs
import proofs.«164825_j75273596830285_1_alg».proof.Proof.Gen.Kernel
import proofs.«164825_j75273596830285_1_alg».proof.Proof.Gen.Kernel.Skeleton
import proofs.«164825_j75273596830285_1_alg».proof.Proof.Gen.Kernel.Launch
import proofs.«164825_j75273596830285_1_alg».proof.Proof.Gen.Kernel.Points
import proofs.«164825_j75273596830285_1_alg».proof.Proof.Gen.Kernel.Frame
import proofs.«164825_j75273596830285_1_alg».proof.Proof.Gen.KernelIdeal
import proofs.«164825_j75273596830285_1_alg».proof.Proof.Gen.KernelIdeal.Skeleton
import proofs.«164825_j75273596830285_1_alg».proof.Proof.Gen.KernelIdeal.Launch
import proofs.«164825_j75273596830285_1_alg».proof.Proof.Gen.KernelIdeal.Points
import proofs.«164825_j75273596830285_1_alg».proof.Proof.Gen.KernelIdeal.Frame
import proofs.«164825_j75273596830285_1_alg».proof.Proof.Gen.ReferenceIdeal
import proofs.«164825_j75273596830285_1_alg».proof.Proof.Gen.Pre_finite_inputs
import proofs.«164825_j75273596830285_1_alg».proof.Proof.KernelRun
import proofs.«164825_j75273596830285_1_alg».proof.Proof.KernelValue
import proofs.«164825_j75273596830285_1_alg».proof.Proof.RefValue
import proofs.«164825_j75273596830285_1_alg».proof.Proof.Equal
import Idealize.ShloMosaic.Adequacy
import Idealize.ShloMosaic.Init

noncomputable section

namespace Cert.Proof

open Idealize.ShloMosaic Idealize.SL.Sem

namespace Claims

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the results forgotten. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Result.kept_arg0 _),
     (h c Cert.ReferenceIdeal.main_arg1).trans (Cert.ReferenceIdeal.Result.kept_arg1 _),
     (h c Cert.ReferenceIdeal.main_arg2).trans (Cert.ReferenceIdeal.Result.kept_arg2 _),
     (h c Cert.ReferenceIdeal.main_arg3).trans (Cert.ReferenceIdeal.Result.kept_arg3 _),
     (h c Cert.ReferenceIdeal.main_arg4).trans (Cert.ReferenceIdeal.Result.kept_arg4 _),
     (h c Cert.ReferenceIdeal.main_arg5).trans (Cert.ReferenceIdeal.Result.kept_arg5 _),
     (h c Cert.ReferenceIdeal.main_arg6).trans (Cert.ReferenceIdeal.Result.kept_arg6 _)⟩)
    (Cert.ReferenceIdeal.Value.run_after (F := Ideal) m ρ)

/-- The ideal pass rewrote no operation. -/
theorem preserves : Cert.preserves_Kernel_KernelIdeal := trivial

/-- From memories agreeing on the arguments both programs end with the second biased aggregation and its row-wise
    log-softmax, as the kernel's whole-array functions of the arguments. -/
theorem algebraic : Cert.algebraic_KernelIdeal_ReferenceIdeal := by
  intro m ρ m' ρ' _ hagree
  refine ⟨fun c => Cert.KernelIdeal.LogSoftmax.biased (Cert.KernelIdeal.Result.layer2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (Cert.Spec.row40 (m ((c.tc : Thread Cert.KernelIdeal.nD Cert.KernelIdeal.τ).loc Cert.KernelIdeal.main_arg6))),
    fun c => Cert.KernelIdeal.LogSoftmax.logSoftmax (Cert.KernelIdeal.Result.layer2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (Cert.Spec.row40 (m ((c.tc : Thread Cert.KernelIdeal.nD Cert.KernelIdeal.τ).loc Cert.KernelIdeal.main_arg6))), ?_, ?_⟩
  · exact (θ_run Cert.KernelIdeal.defs _ _).mono (fun r h c =>
      ⟨(h c).1.trans (Cert.KernelIdeal.Result.out0 m ρ c), (h c).2.1.trans (Cert.KernelIdeal.Result.out1 m ρ c), (h c).2.2⟩)
      (Cert.KernelIdeal.Outputs.run_outputs m ρ)
  · refine (θ_run Cert.ReferenceIdeal.defs _ _).mono (fun r h c => ⟨?_, ?_,
      (h c Cert.ReferenceIdeal.main_arg0).trans (Cert.ReferenceIdeal.Result.kept_arg0 _),
      (h c Cert.ReferenceIdeal.main_arg1).trans (Cert.ReferenceIdeal.Result.kept_arg1 _),
      (h c Cert.ReferenceIdeal.main_arg2).trans (Cert.ReferenceIdeal.Result.kept_arg2 _),
      (h c Cert.ReferenceIdeal.main_arg3).trans (Cert.ReferenceIdeal.Result.kept_arg3 _),
      (h c Cert.ReferenceIdeal.main_arg4).trans (Cert.ReferenceIdeal.Result.kept_arg4 _),
      (h c Cert.ReferenceIdeal.main_arg5).trans (Cert.ReferenceIdeal.Result.kept_arg5 _),
      (h c Cert.ReferenceIdeal.main_arg6).trans (Cert.ReferenceIdeal.Result.kept_arg6 _)⟩)
      (Cert.ReferenceIdeal.Value.run_after (F := Ideal) m' ρ')
    · refine (h c Cert.ReferenceIdeal.main_v66).trans ((Cert.ReferenceIdeal.Result.out0 _).trans ?_)
      show Cert.ReferenceIdeal.Read.val_main_v66 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [(hagree c).1, (hagree c).2.1, (hagree c).2.2.1, (hagree c).2.2.2.1, (hagree c).2.2.2.2.1, (hagree c).2.2.2.2.2.1, (hagree c).2.2.2.2.2.2]
      exact Cert.Equal.ref_out0 _ _ _ _ _ _ _
    · refine (h c Cert.ReferenceIdeal.main_v67).trans ((Cert.ReferenceIdeal.Result.out1 _).trans ?_)
      show Cert.ReferenceIdeal.Read.val_main_v67 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [(hagree c).1, (hagree c).2.1, (hagree c).2.2.1, (hagree c).2.2.2.1, (hagree c).2.2.2.2.1, (hagree c).2.2.2.2.2.1, (hagree c).2.2.2.2.2.2]
      exact Cert.Equal.ref_out1 _ _ _ _ _ _ _

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
